-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x3200000 : Shape := ⟨2, ![2, 3200000]⟩
abbrev S3x250000 : Shape := ⟨2, ![3, 250000]⟩
abbrev S2x750000 : Shape := ⟨2, ![2, 750000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S2x3200000 32) (main_arg3 : IVec S3x250000 32) (main_arg4 : IVec S2x750000 32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_v13 main_v16
-- ==== Kernel.lean ====
abbrev S100000x128 : Shape := ⟨2, ![100000, 128]⟩
abbrev S2x1600000 : Shape := ⟨2, ![2, 1600000]⟩
abbrev S2x3200000 : Shape := ⟨2, ![2, 3200000]⟩
abbrev S3x250000 : Shape := ⟨2, ![3, 250000]⟩
abbrev S2x750000 : Shape := ⟨2, ![2, 750000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S100000x384 : Shape := ⟨2, ![100000, 384]⟩
abbrev S4000x128 : Shape := ⟨2, ![4000, 128]⟩
abbrev S4000x384 : Shape := ⟨2, ![4000, 384]⟩
abbrev S1x250000 : Shape := ⟨2, ![1, 250000]⟩
abbrev S250000 : Shape := ⟨1, ![250000]⟩
abbrev S_ : Shape := ⟨0, ![]⟩
abbrev S251904 : Shape := ⟨1, ![251904]⟩
abbrev S251904x1 : Shape := ⟨2, ![251904, 1]⟩
abbrev S251904x384 : Shape := ⟨2, ![251904, 384]⟩
abbrev S2048x384 : Shape := ⟨2, ![2048, 384]⟩
abbrev S2048 : Shape := ⟨1, ![2048]⟩
abbrev S2048x128 : Shape := ⟨2, ![2048, 128]⟩
abbrev S250000x3 : Shape := ⟨2, ![250000, 3]⟩
abbrev S750000 : Shape := ⟨1, ![750000]⟩
abbrev S1x750000 : Shape := ⟨2, ![1, 750000]⟩
abbrev S1600000 : Shape := ⟨1, ![1600000]⟩
abbrev S750000x1 : Shape := ⟨2, ![750000, 1]⟩
abbrev S1600000x2 : Shape := ⟨2, ![1600000, 2]⟩
abbrev S3200000 : Shape := ⟨1, ![3200000]⟩
abbrev S1x3200000 : Shape := ⟨2, ![1, 3200000]⟩
abbrev S100000 : Shape := ⟨1, ![100000]⟩
abbrev S3200000x1 : Shape := ⟨2, ![3200000, 1]⟩

abbrev nBuf : Space → Nat
  | .hbm => 75
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x3200000, .i32⟩
  | .hbm, ⟨3, _⟩ => ⟨S3x250000, .i32⟩
  | .hbm, ⟨4, _⟩ => ⟨S2x750000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S384, .f32⟩
  | .hbm, ⟨13, _⟩ => ⟨S1x384, .f32⟩
  | .hbm, ⟨14, _⟩ => ⟨S100000x384, .bf16⟩
  | .hbm, ⟨15, _⟩ => ⟨S1x250000, .i32⟩
  | .hbm, ⟨16, _⟩ => ⟨S250000, .i32⟩
  | .hbm, ⟨17, _⟩ => ⟨S1x250000, .i32⟩
  | .hbm, ⟨18, _⟩ => ⟨S250000, .i32⟩
  | .hbm, ⟨19, _⟩ => ⟨S1x250000, .i32⟩
  | .hbm, ⟨20, _⟩ => ⟨S250000, .i32⟩
  | .hbm, ⟨21, _⟩ => ⟨S_, .i32⟩
  | .hbm, ⟨22, _⟩ => ⟨S_, .i32⟩
  | .hbm, ⟨23, _⟩ => ⟨S251904, .i32⟩
  | .hbm, ⟨24, _⟩ => ⟨S_, .i32⟩
  | .hbm, ⟨25, _⟩ => ⟨S_, .i32⟩
  | .hbm, ⟨26, _⟩ => ⟨S251904, .i32⟩
  | .hbm, ⟨27, _⟩ => ⟨S_, .i32⟩
  | .hbm, ⟨28, _⟩ => ⟨S_, .i32⟩
  | .hbm, ⟨29, _⟩ => ⟨S251904, .i32⟩
  | .hbm, ⟨30, _⟩ => ⟨S_, .i32⟩
  | .hbm, ⟨31, _⟩ => ⟨S251904, .i32⟩
  | .hbm, ⟨32, _⟩ => ⟨S251904, .i1⟩
  | .hbm, ⟨33, _⟩ => ⟨S_, .i32⟩
  | .hbm, ⟨34, _⟩ => ⟨S251904, .i32⟩
  | .hbm, ⟨35, _⟩ => ⟨S251904, .i32⟩
  | .hbm, ⟨36, _⟩ => ⟨S251904, .i32⟩
  | .hbm, ⟨37, _⟩ => ⟨S251904x1, .i32⟩
  | .hbm, ⟨38, _⟩ => ⟨S251904x384, .bf16⟩
  | .hbm, ⟨39, _⟩ => ⟨S_, .i32⟩
  | .hbm, ⟨40, _⟩ => ⟨S251904, .i32⟩
  | .hbm, ⟨41, _⟩ => ⟨S251904, .i1⟩
  | .hbm, ⟨42, _⟩ => ⟨S_, .i32⟩
  | .hbm, ⟨43, _⟩ => ⟨S251904, .i32⟩
  | .hbm, ⟨44, _⟩ => ⟨S251904, .i32⟩
  | .hbm, ⟨45, _⟩ => ⟨S251904, .i32⟩
  | .hbm, ⟨46, _⟩ => ⟨S251904x1, .i32⟩
  | .hbm, ⟨47, _⟩ => ⟨S251904x384, .bf16⟩
  | .hbm, ⟨48, _⟩ => ⟨S_, .i32⟩
  | .hbm, ⟨49, _⟩ => ⟨S251904, .i32⟩
  | .hbm, ⟨50, _⟩ => ⟨S251904, .i1⟩
  | .hbm, ⟨51, _⟩ => ⟨S_, .i32⟩
  | .hbm, ⟨52, _⟩ => ⟨S251904, .i32⟩
  | .hbm, ⟨53, _⟩ => ⟨S251904, .i32⟩
  | .hbm, ⟨54, _⟩ => ⟨S251904, .i32⟩
  | .hbm, ⟨55, _⟩ => ⟨S251904x1, .i32⟩
  | .hbm, ⟨56, _⟩ => ⟨S251904x384, .bf16⟩
  | .hbm, ⟨57, _⟩ => ⟨S251904, .f32⟩
  | .hbm, ⟨58, _⟩ => ⟨S250000, .f32⟩
  | .hbm, ⟨59, _⟩ => ⟨S250000x3, .f32⟩
  | .hbm, ⟨60, _⟩ => ⟨S750000, .f32⟩
  | .hbm, ⟨61, _⟩ => ⟨S1x750000, .i32⟩
  | .hbm, ⟨62, _⟩ => ⟨S750000, .i32⟩
  | .hbm, ⟨63, _⟩ => ⟨S_, .f32⟩
  | .hbm, ⟨64, _⟩ => ⟨S1600000, .f32⟩
  | .hbm, ⟨65, _⟩ => ⟨S750000x1, .i32⟩
  | .hbm, ⟨66, _⟩ => ⟨S1600000, .f32⟩
  | .hbm, ⟨67, _⟩ => ⟨S1600000x2, .f32⟩
  | .hbm, ⟨68, _⟩ => ⟨S3200000, .f32⟩
  | .hbm, ⟨69, _⟩ => ⟨S1x3200000, .i32⟩
  | .hbm, ⟨70, _⟩ => ⟨S3200000, .i32⟩
  | .hbm, ⟨71, _⟩ => ⟨S_, .f32⟩
  | .hbm, ⟨72, _⟩ => ⟨S100000, .f32⟩
  | .hbm, ⟨73, _⟩ => ⟨S3200000x1, .i32⟩
  | .hbm, ⟨74, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x384, .f32⟩
  | .local _ .vmem, ⟨3, _⟩ => ⟨S1x384, .f32⟩
  | .local _ .vmem, ⟨4, _⟩ => ⟨S4000x384, .bf16⟩
  | .local _ .vmem, ⟨5, _⟩ => ⟨S4000x384, .bf16⟩
  | .local _ .vmem, ⟨6, _⟩ => ⟨S2048x384, .bf16⟩
  | .local _ .vmem, ⟨7, _⟩ => ⟨S2048x384, .bf16⟩
  | .local _ .vmem, ⟨8, _⟩ => ⟨S2048x384, .bf16⟩
  | .local _ .vmem, ⟨9, _⟩ => ⟨S2048x384, .bf16⟩
  | .local _ .vmem, ⟨10, _⟩ => ⟨S2048x384, .bf16⟩
  | .local _ .vmem, ⟨11, _⟩ => ⟨S2048x384, .bf16⟩
  | .local _ .vmem, ⟨12, _⟩ => ⟨S2048, .f32⟩
  | .local _ .vmem, ⟨13, _⟩ => ⟨S2048, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_c_1 : Ref sig .tc := ⟨.hbm, 27, rfl⟩
abbrev main_call2_v0 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4000x384 : S1x384.Broadcasts S4000x384
  inb_S4000x384_S4000x384_0_0 : ∀ a, (![0, 0] : Fin 2 → Nat) a + S4000x384.size a ≤ S4000x384.size a
  h_S4000x384 : 0 < S4000x384.numel
  packedbf16_S4000x384_S4000x384_0_0 : (Rect.unit (s := S4000x384) ![0, 0] S4000x384.size inb_S4000x384_S4000x384_0_0).PackedRows (EltTy.packing .bf16)
  slices_S3x250000_S1x250000_0_0 : S3x250000.Slices ![0, 0] S1x250000
  shapeCasts_S1x250000_S250000 : S1x250000.ShapeCasts S250000
  slices_S3x250000_S1x250000_1_0 : S3x250000.Slices ![1, 0] S1x250000
  slices_S3x250000_S1x250000_2_0 : S3x250000.Slices ![2, 0] S1x250000
  pads_S250000_S251904_019040 : S250000.Pads (![0] : Fin 1 → Nat) ![1904] ![0] S251904
  h_S_ : 0 < S_.numel
  bcast_S_S251904 : S_.BroadcastsInDim S251904 (![] : Fin 0 → Fin S251904.rank)
  bcast_S251904_S251904x1_0 : S251904.BroadcastsInDim S251904x1 (![0] : Fin 1 → Fin S251904x1.rank)
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  reduces_S2048x128_S2048 : S2048x128.Reduces [1] S2048
  inb_S2048_S2048_0 : ∀ a, (![0] : Fin 1 → Nat) a + S2048.size a ≤ S2048.size a
  h_S2048 : 0 < S2048.numel
  slices_S251904_S250000_0 : S251904.Slices ![0] S250000
  bcast_S250000_S250000x3_0 : S250000.BroadcastsInDim S250000x3 (![0] : Fin 1 → Fin S250000x3.rank)
  shapeCasts_S250000x3_S750000 : S250000x3.ShapeCasts S750000
  slices_S2x750000_S1x750000_1_0 : S2x750000.Slices ![1, 0] S1x750000
  shapeCasts_S1x750000_S750000 : S1x750000.ShapeCasts S750000
  bcast_S_S1600000 : S_.BroadcastsInDim S1600000 (![] : Fin 0 → Fin S1600000.rank)
  bcast_S750000_S750000x1_0 : S750000.BroadcastsInDim S750000x1 (![0] : Fin 1 → Fin S750000x1.rank)
  bcast_S1600000_S1600000x2_0 : S1600000.BroadcastsInDim S1600000x2 (![0] : Fin 1 → Fin S1600000x2.rank)
  shapeCasts_S1600000x2_S3200000 : S1600000x2.ShapeCasts S3200000
  slices_S2x3200000_S1x3200000_1_0 : S2x3200000.Slices ![1, 0] S1x3200000
  shapeCasts_S1x3200000_S3200000 : S1x3200000.ShapeCasts S3200000
  bcast_S_S100000 : S_.BroadcastsInDim S100000 (![] : Fin 0 → Fin S100000.rank)
  bcast_S3200000_S3200000x1_0 : S3200000.BroadcastsInDim S3200000x1 (![0] : Fin 1 → Fin S3200000x1.rank)
  dot_S4000x128_S128x384_S4000x384_1_0_0_1_n_n_wf : DotDims.WF S4000x128 S128x384 S4000x384 [1] [0] [0] [1] [] []
  gather_S100000x384_S251904x1_S251904x384_1_0_n_n_0_1_1384_wf : GatherDims.WF S100000x384 S251904x1 S251904x384 [1] [0] [] [0] [] 1 ![1, 384]
  scatter_S1600000_S750000x1_S750000_n_0_0_1_wf : ScatterDims.WF S1600000 S750000x1 S750000 [] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x384.size a ≤ S100000x384.size a
  hwx0_3 : ∀ i : grid0.Coords, EltTy.bits .bf16 = 32 ∨ (Rect.block (s := S100000x384) S4000x384.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x384.size a ≤ S251904x384.size a
  hwx1_0 : ∀ i : grid1.Coords, EltTy.bits .bf16 = 32 ∨ (Rect.block (s := S251904x384) S2048x384.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x384.size a ≤ S251904x384.size a
  hwx1_1 : ∀ i : grid1.Coords, EltTy.bits .bf16 = 32 ∨ (Rect.block (s := S251904x384) S2048x384.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x384.size a ≤ S251904x384.size a
  hwx1_2 : ∀ i : grid1.Coords, EltTy.bits .bf16 = 32 ∨ (Rect.block (s := S251904x384) S2048x384.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048.size a ≤ S251904.size a
  hwx1_3 : ∀ i : grid1.Coords, EltTy.bits .f32 = 32 ∨ (Rect.block (s := S251904) S2048.size (cc1_transform_3 i) (hinb1_3 i)).WholeWords (EltTy.packing .f32)

variable [Facts₀]

def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf
def gather_S100000x384_S251904x1_S251904x384_1_0_n_n_0_1_1384 : GatherDims S100000x384 S251904x1 S251904x384 where
  offsetDims := [1]
  collapsedSliceDims := [0]
  operandBatchingDims := []
  startIndicesBatchingDims := []
  startIndexMap := [0]
  indexVectorDim := 1
  sliceSizes := ![1, 384]
  wf := gather_S100000x384_S251904x1_S251904x384_1_0_n_n_0_1_1384_wf
def scatter_S1600000_S750000x1_S750000_n_0_0_1 : ScatterDims S1600000 S750000x1 S750000 where
  updateWindowDims := []
  insertedWindowDims := [0]
  scatterDimsToOperandDims := [0]
  indexVectorDim := 1
  wf := scatter_S1600000_S750000x1_S750000_n_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2048x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2048x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2048x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x3200000 : Shape := ⟨2, ![2, 3200000]⟩
abbrev S3x250000 : Shape := ⟨2, ![3, 250000]⟩
abbrev S2x750000 : Shape := ⟨2, ![2, 750000]⟩
abbrev S128x128 : Shape := ⟨2, ![128, 128]⟩
abbrev S128 : Shape := ⟨1, ![128]⟩
abbrev S1x128 : Shape := ⟨2, ![1, 128]⟩
abbrev S100000x4x32 : Shape := ⟨3, ![100000, 4, 32]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x4x32 : Shape := ⟨3, ![250000, 4, 32]⟩
abbrev S250000x4 : Shape := ⟨2, ![250000, 4]⟩
abbrev S250000x3 : Shape := ⟨2, ![250000, 3]⟩
abbrev S750000 : Shape := ⟨1, ![750000]⟩
abbrev S1x750000 : Shape := ⟨2, ![1, 750000]⟩
abbrev S1600000 : Shape := ⟨1, ![1600000]⟩
abbrev S750000x1 : Shape := ⟨2, ![750000, 1]⟩
abbrev S1600000x2 : Shape := ⟨2, ![1600000, 2]⟩
abbrev S3200000 : Shape := ⟨1, ![3200000]⟩
abbrev S1x3200000 : Shape := ⟨2, ![1, 3200000]⟩
abbrev S100000 : Shape := ⟨1, ![100000]⟩
abbrev S3200000x1 : Shape := ⟨2, ![3200000, 1]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S2x3200000, .i32⟩
  | 3 => ⟨S3x250000, .i32⟩
  | 4 => ⟨S2x750000, .i32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S100000x128, .f32⟩
  | 12 => ⟨S1x128, .f32⟩
  | 13 => ⟨S100000x128, .f32⟩
  | 14 => ⟨S100000x128, .f32⟩
  | 15 => ⟨S100000x4x32, .f32⟩
  | 16 => ⟨S100000x128, .f32⟩
  | 17 => ⟨S1x128, .f32⟩
  | 18 => ⟨S100000x128, .f32⟩
  | 19 => ⟨S100000x128, .f32⟩
  | 20 => ⟨S100000x4x32, .f32⟩
  | 21 => ⟨S100000x128, .f32⟩
  | 22 => ⟨S1x128, .f32⟩
  | 23 => ⟨S100000x128, .f32⟩
  | 24 => ⟨S100000x128, .f32⟩
  | 25 => ⟨S100000x4x32, .f32⟩
  | 26 => ⟨S1x250000, .i32⟩
  | 27 => ⟨S250000, .i32⟩
  | 28 => ⟨S1x250000, .i32⟩
  | 29 => ⟨S250000, .i32⟩
  | 30 => ⟨S1x250000, .i32⟩
  | 31 => ⟨S250000, .i32⟩
  | 32 => ⟨S_, .i32⟩
  | 33 => ⟨S250000, .i32⟩
  | 34 => ⟨S250000, .i1⟩
  | 35 => ⟨S_, .i32⟩
  | 36 => ⟨S250000, .i32⟩
  | 37 => ⟨S250000, .i32⟩
  | 38 => ⟨S250000, .i32⟩
  | 39 => ⟨S250000x1, .i32⟩
  | 40 => ⟨S250000x4x32, .f32⟩
  | 41 => ⟨S_, .i32⟩
  | 42 => ⟨S250000, .i32⟩
  | 43 => ⟨S250000, .i1⟩
  | 44 => ⟨S_, .i32⟩
  | 45 => ⟨S250000, .i32⟩
  | 46 => ⟨S250000, .i32⟩
  | 47 => ⟨S250000, .i32⟩
  | 48 => ⟨S250000x1, .i32⟩
  | 49 => ⟨S250000x4x32, .f32⟩
  | 50 => ⟨S_, .i32⟩
  | 51 => ⟨S250000, .i32⟩
  | 52 => ⟨S250000, .i1⟩
  | 53 => ⟨S_, .i32⟩
  | 54 => ⟨S250000, .i32⟩
  | 55 => ⟨S250000, .i32⟩
  | 56 => ⟨S250000, .i32⟩
  | 57 => ⟨S250000x1, .i32⟩
  | 58 => ⟨S250000x4x32, .f32⟩
  | 59 => ⟨S_, .i32⟩
  | 60 => ⟨S250000, .i32⟩
  | 61 => ⟨S250000, .i1⟩
  | 62 => ⟨S_, .i32⟩
  | 63 => ⟨S250000, .i32⟩
  | 64 => ⟨S250000, .i32⟩
  | 65 => ⟨S250000, .i32⟩
  | 66 => ⟨S250000x1, .i32⟩
  | 67 => ⟨S250000x4x32, .f32⟩
  | 68 => ⟨S_, .i32⟩
  | 69 => ⟨S250000, .i32⟩
  | 70 => ⟨S250000, .i1⟩
  | 71 => ⟨S_, .i32⟩
  | 72 => ⟨S250000, .i32⟩
  | 73 => ⟨S250000, .i32⟩
  | 74 => ⟨S250000, .i32⟩
  | 75 => ⟨S250000x1, .i32⟩
  | 76 => ⟨S250000x4x32, .f32⟩
  | 77 => ⟨S_, .i32⟩
  | 78 => ⟨S250000, .i32⟩
  | 79 => ⟨S250000, .i1⟩
  | 80 => ⟨S_, .i32⟩
  | 81 => ⟨S250000, .i32⟩
  | 82 => ⟨S250000, .i32⟩
  | 83 => ⟨S250000, .i32⟩
  | 84 => ⟨S250000x1, .i32⟩
  | 85 => ⟨S250000x4x32, .f32⟩
  | 86 => ⟨S_, .i32⟩
  | 87 => ⟨S250000, .i32⟩
  | 88 => ⟨S250000, .i1⟩
  | 89 => ⟨S_, .i32⟩
  | 90 => ⟨S250000, .i32⟩
  | 91 => ⟨S250000, .i32⟩
  | 92 => ⟨S250000, .i32⟩
  | 93 => ⟨S250000x1, .i32⟩
  | 94 => ⟨S250000x4x32, .f32⟩
  | 95 => ⟨S_, .i32⟩
  | 96 => ⟨S250000, .i32⟩
  | 97 => ⟨S250000, .i1⟩
  | 98 => ⟨S_, .i32⟩
  | 99 => ⟨S250000, .i32⟩
  | 100 => ⟨S250000, .i32⟩
  | 101 => ⟨S250000, .i32⟩
  | 102 => ⟨S250000x1, .i32⟩
  | 103 => ⟨S250000x4x32, .f32⟩
  | 104 => ⟨S_, .i32⟩
  | 105 => ⟨S250000, .i32⟩
  | 106 => ⟨S250000, .i1⟩
  | 107 => ⟨S_, .i32⟩
  | 108 => ⟨S250000, .i32⟩
  | 109 => ⟨S250000, .i32⟩
  | 110 => ⟨S250000, .i32⟩
  | 111 => ⟨S250000x1, .i32⟩
  | 112 => ⟨S250000x4x32, .f32⟩
  | 113 => ⟨S250000x4x32, .f32⟩
  | 114 => ⟨S250000x4x32, .f32⟩
  | 115 => ⟨S250000x4x32, .f32⟩
  | 116 => ⟨S250000x4x32, .f32⟩
  | 117 => ⟨S250000x4x32, .f32⟩
  | 118 => ⟨S250000x4x32, .f32⟩
  | 119 => ⟨S250000x4x32, .f32⟩
  | 120 => ⟨S250000x4x32, .f32⟩
  | 121 => ⟨S250000x4x32, .f32⟩
  | 122 => ⟨S250000x4x32, .f32⟩
  | 123 => ⟨S250000x4x32, .f32⟩
  | 124 => ⟨S250000x4x32, .f32⟩
  | 125 => ⟨S250000x4x32, .f32⟩
  | 126 => ⟨S250000x4x32, .f32⟩
  | 127 => ⟨S250000x4x32, .f32⟩
  | _ => ⟨S100000x128, .f32⟩

abbrev hbmTy0_1 (i : Nat) : BufTy := match i % 128 with
  | 0 => ⟨S250000x4x32, .f32⟩
  | 1 => ⟨S250000x4x32, .f32⟩
  | 2 => ⟨S_, .f32⟩
  | 3 => ⟨S250000x4, .f32⟩
  | 4 => ⟨S_, .f32⟩
  | 5 => ⟨S250000x4, .f32⟩
  | 6 => ⟨S250000x4, .f32⟩
  | 7 => ⟨S_, .f32⟩
  | 8 => ⟨S250000, .f32⟩
  | 9 => ⟨S_, .f32⟩
  | 10 => ⟨S250000, .f32⟩
  | 11 => ⟨S250000, .f32⟩
  | 12 => ⟨S250000, .f32⟩
  | 13 => ⟨S250000x3, .f32⟩
  | 14 => ⟨S750000, .f32⟩
  | 15 => ⟨S1x750000, .i32⟩
  | 16 => ⟨S750000, .i32⟩
  | 17 => ⟨S_, .f32⟩
  | 18 => ⟨S1600000, .f32⟩
  | 19 => ⟨S750000x1, .i32⟩
  | 20 => ⟨S1600000, .f32⟩
  | 21 => ⟨S1600000x2, .f32⟩
  | 22 => ⟨S3200000, .f32⟩
  | 23 => ⟨S1x3200000, .i32⟩
  | 24 => ⟨S3200000, .i32⟩
  | 25 => ⟨S_, .f32⟩
  | 26 => ⟨S100000, .f32⟩
  | 27 => ⟨S3200000x1, .i32⟩
  | 28 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_1 : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_3 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_c_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst : Ref sig .tc := ⟨.hbm, 130, rfl⟩
abbrev main_v101 : Ref sig .tc := ⟨.hbm, 131, rfl⟩
abbrev main_cst_17 : Ref sig .tc := ⟨.hbm, 132, rfl⟩
abbrev main_v102 : Ref sig .tc := ⟨.hbm, 133, rfl⟩
abbrev main_v103 : Ref sig .tc := ⟨.hbm, 134, rfl⟩
abbrev main_cst_18 : Ref sig .tc := ⟨.hbm, 135, rfl⟩
abbrev main_v104 : Ref sig .tc := ⟨.hbm, 136, rfl⟩
abbrev main_cst_19 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_20 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_21 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S100000x4x32 : S100000x128.ShapeCasts S100000x4x32
  slices_S3x250000_S1x250000_0_0 : S3x250000.Slices ![0, 0] S1x250000
  shapeCasts_S1x250000_S250000 : S1x250000.ShapeCasts S250000
  slices_S3x250000_S1x250000_1_0 : S3x250000.Slices ![1, 0] S1x250000
  slices_S3x250000_S1x250000_2_0 : S3x250000.Slices ![2, 0] S1x250000
  bcast_S_S250000 : S_.BroadcastsInDim S250000 (![] : Fin 0 → Fin S250000.rank)
  bcast_S250000_S250000x1_0 : S250000.BroadcastsInDim S250000x1 (![0] : Fin 1 → Fin S250000x1.rank)
  reducesTo_S250000x4x32_S250000x4_d2 : S250000x4x32.ReducesTo [2] S250000x4
  h_S_ : 0 < S_.numel
  bcast_S_S250000x4 : S_.BroadcastsInDim S250000x4 (![] : Fin 0 → Fin S250000x4.rank)
  reducesTo_S250000x4_S250000_d1 : S250000x4.ReducesTo [1] S250000
  bcast_S250000_S250000x3_0 : S250000.BroadcastsInDim S250000x3 (![0] : Fin 1 → Fin S250000x3.rank)
  shapeCasts_S250000x3_S750000 : S250000x3.ShapeCasts S750000
  slices_S2x750000_S1x750000_1_0 : S2x750000.Slices ![1, 0] S1x750000
  shapeCasts_S1x750000_S750000 : S1x750000.ShapeCasts S750000
  bcast_S_S1600000 : S_.BroadcastsInDim S1600000 (![] : Fin 0 → Fin S1600000.rank)
  bcast_S750000_S750000x1_0 : S750000.BroadcastsInDim S750000x1 (![0] : Fin 1 → Fin S750000x1.rank)
  bcast_S1600000_S1600000x2_0 : S1600000.BroadcastsInDim S1600000x2 (![0] : Fin 1 → Fin S1600000x2.rank)
  shapeCasts_S1600000x2_S3200000 : S1600000x2.ShapeCasts S3200000
  slices_S2x3200000_S1x3200000_1_0 : S2x3200000.Slices ![1, 0] S1x3200000
  shapeCasts_S1x3200000_S3200000 : S1x3200000.ShapeCasts S3200000
  bcast_S_S100000 : S_.BroadcastsInDim S100000 (![] : Fin 0 → Fin S100000.rank)
  bcast_S3200000_S3200000x1_0 : S3200000.BroadcastsInDim S3200000x1 (![0] : Fin 1 → Fin S3200000x1.rank)
  dot_S100000x128_S128x128_S100000x128_1_0_0_1_n_n_wf : DotDims.WF S100000x128 S128x128 S100000x128 [1] [0] [0] [1] [] []
  gather_S100000x4x32_S250000x1_S250000x4x32_12_0_n_n_0_1_1432_wf : GatherDims.WF S100000x4x32 S250000x1 S250000x4x32 [1, 2] [0] [] [0] [] 1 ![1, 4, 32]
  scatter_S1600000_S750000x1_S750000_n_0_0_1_wf : ScatterDims.WF S1600000 S750000x1 S750000 [] [0] [0] 1
  scatter_S100000_S3200000x1_S3200000_n_0_0_1_wf : ScatterDims.WF S100000 S3200000x1 S3200000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x4x32_S250000x1_S250000x4x32_12_0_n_n_0_1_1432 : GatherDims S100000x4x32 S250000x1 S250000x4x32 where
  offsetDims := [1, 2]
  collapsedSliceDims := [0]
  operandBatchingDims := []
  startIndicesBatchingDims := []
  startIndexMap := [0]
  indexVectorDim := 1
  sliceSizes := ![1, 4, 32]
  wf := gather_S100000x4x32_S250000x1_S250000x4x32_12_0_n_n_0_1_1432_wf
def scatter_S1600000_S750000x1_S750000_n_0_0_1 : ScatterDims S1600000 S750000x1 S750000 where
  updateWindowDims := []
  insertedWindowDims := [0]
  scatterDimsToOperandDims := [0]
  indexVectorDim := 1
  wf := scatter_S1600000_S750000x1_S750000_n_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.KBody0.lean ====
/-
  The projection region, one grid point at a time, at any float instance.

  The region's grid has 25 points; point t works on rows 4000·t … 4000·t + 3999 of the node features. Its body loads
  the feature block [4000,128], the whole weight matrix [128,384] and the bias row [1,384], and stores one block
  [4000,384]: the matrix product plus the bias row, rounded. Stated here, for buffer contents `V` at the region's
  entry: the block each window holds at a point, what the body leaves in the output window's buffer as a function of
  the three input blocks, the body's run, and the region's proof data with its body obligation.
-/
import proofs.«181147_j65403761983981_2_alg».proof.Proof.Gen.Kernel.Launch
import proofs.«181147_j65403761983981_2_alg».proof.Proof.Gen.Kernel.Skeleton
import proofs.«181147_j65403761983981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not: the
    feature block moves with the point and is fetched each time; the weights and the bias row do not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4000x128 := Rect.unit (s := S4000x128) ![0, 0] S4000x128.size inb_S4000x128_S4000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S4000x384 := Rect.unit (s := S4000x384) ![0, 0] S4000x384.size inb_S4000x384_S4000x384_0_0

/-! ## What the body leaves in the output window's buffer -/

/-- The output buffer after the body: its one store, of the product-plus-bias of the three loaded blocks. -/
def out0_3 (x0 : Vec F S4000x128 .f32) (x1 : Vec F S128x384 .f32) (x2 : Vec F S1x384 .f32) : Vec F S4000x384 .bf16 :=
  View.canon [⟨r0_3, k0_pay1 (View.ld x0 r0_0) (View.ld x1 r0_1) (View.ld x2 r0_2)⟩]

/-- The one store covers the buffer. -/
theorem cover0_3 (p0 : Vec F S4000x384 .bf16) (y : S4000x384.Idx) :
    ∃ pc ∈ ([⟨r0_3, p0⟩] : List (View.Piece (Elt F) S4000x384 .bf16)), y ∈ pc.1.set :=
  View.cover_of_tiled [⟨r0_3, p0⟩] S4000x384.size (by rfl) y

/-! ## The body's run -/

set_option maxHeartbeats 1000000 in
/-- The body on whole buffers, the inputs' at contents `x0 x1 x2` and the output's at anything, runs to the
    continuation holding the inputs' as they were and the output's at `out0_3` of them. -/
theorem sound_kernel0 (c : Dev nD) (E : Set ℕ) (i : grid0.Coords) (arg1 : Memref sig .tc .vmem S4000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S4000x384 .bf16) (harg4 : arg4.IsWhole)
    (x0 : Vec F S4000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KBody1.lean ====
/-
  The contraction region, one grid point at a time, at any float instance.

  The region's grid has 123 points; point t works on rows 2048·t … 2048·t + 2047 of the three gathered tables
  [251904,384] (one per clique corner). Its body loads the three blocks [2048,384] and stores one block [2048]: per
  row, the exponential of the scaled lane sum of the symmetrised products. Stated here, for buffer contents `V` at
  the region's entry: the block each window holds at a point, what the body leaves in the output window's buffer as
  a function of the three input blocks, the body's run, and the region's proof data with its body obligation.
-/
import proofs.«181147_j65403761983981_2_alg».proof.Proof.Gen.Kernel.Launch
import proofs.«181147_j65403761983981_2_alg».proof.Proof.Gen.Kernel.Skeleton
import proofs.«181147_j65403761983981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point: each is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x384 := Rect.unit (s := S2048x384) ![0, 0] S2048x384.size inb_S2048x384_S2048x384_0_0
abbrev r1_3 : Rect S2048 := Rect.unit (s := S2048) ![0] S2048.size inb_S2048_S2048_0

/-! ## What the body leaves in the output window's buffer -/

/-- The output buffer after the body: its one store, of the scores of the three loaded blocks' rows. -/
def out1_3 (x0 : Vec F S2048x384 .bf16) (x1 : Vec F S2048x384 .bf16) (x2 : Vec F S2048x384 .bf16) : Vec F S2048 .f32 :=
  View.canon [⟨r1_3, k1_pay1 (View.ld x0 r1_0) (View.ld x1 r1_0) (View.ld x2 r1_0)⟩]

/-- The one store covers the buffer. -/
theorem cover1_3 (p0 : Vec F S2048 .f32) (y : S2048.Idx) :
    ∃ pc ∈ ([⟨r1_3, p0⟩] : List (View.Piece (Elt F) S2048 .f32)), y ∈ pc.1.set :=
  View.cover_of_tiled [⟨r1_3, p0⟩] S2048.size (by rfl) y

/-! ## The body's run -/

set_option maxHeartbeats 1000000 in
/-- The body on whole buffers, the inputs' at contents `x0 x1 x2` and the output's at anything, runs to the
    continuation holding the inputs' as they were and the output's at `out1_3` of them. -/
theorem sound_kernel1 (c : Dev nD) (E : Set ℕ) (i : grid1.Coords) (arg1 : Memref sig .tc .vmem S2048x384 .bf16) (harg1 : arg1.IsWhole) (arg2 : Memref sig .tc .vmem S2048x384 .bf16) (harg2 : arg2.IsWhole) (arg3 : Memref sig .tc .vmem S2048x384 .bf16) (harg3 : arg3.IsWhole) (arg4 : Memref sig .tc .vmem S2048 .f32) (harg4 : arg4.IsWhole)
    (x0 : Vec F S2048x384 .bf16) (x1 : Vec F S2048x384 .bf16) (x2 : Vec F S2048x384 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__contract_kernel i arg1 harg1 arg2 harg2 arg3 harg3 arg4 harg4) K := by
  simp only [cc1__contract_kernel_eq_skeleton]; unfold cc1__contract_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The proof data of the region on core `c`: the arrays as the region finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KRun.lean ====
/-
  The whole run of the program, at any float instance: the host stretches and the two regions in order, the buffer
  contents named at every boundary.

  Between two items core c holds every unscoped buffer at a known valuation: the launch memory, then each host
  stretch applied in turn, then — after a region — the same with the region's output array replaced by what the
  region's write-backs leave (the fold of the blocks the grid points wrote). The run ends with every unscoped buffer
  at the last valuation; the frame (the arguments end as launched) and the results' values are both read off it.
-/
import proofs.«181147_j65403761983981_2_alg».proof.Proof.Gen.Kernel.Launch
import proofs.«181147_j65403761983981_2_alg».proof.Proof.Gen.Kernel.Skeleton
import proofs.«181147_j65403761983981_2_alg».proof.Proof.Gen.Kernel.Points
import proofs.«181147_j65403761983981_2_alg».proof.Proof.Gen.Kernel.Regions
import proofs.«181147_j65403761983981_2_alg».proof.Proof.KBody0
import proofs.«181147_j65403761983981_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A valuation read at the TensorCore's references. -/
abbrev atTc (W : Dev nD → Valuation τ sig (Elt F)) : (c : Dev nD) → (b : Ref sig .tc) → Buf (Elt F) ((c : Thread nD τ).loc b) :=
  fun c b => W c b

/-! ## What the regions leave in their output arrays -/

/-- After the projection region its output array holds the fold of the 25 written blocks. -/
def outsA : Outs (F := F) := fun _ r c =>
  Function.update (β := fun r : Ref sig .tc => Buf (Elt F) ((c : Thread nD τ).loc r)) (fun r => m ((c : Thread nD τ).loc r))
    main_v3 ((dat0 (atTc (V1 m)) c).arrAt 3 cfg0.N) r

/-- After the contraction region its output array holds the fold of the 123 written blocks. -/
def outsB : Outs (F := F) := fun J r c =>
  Function.update (β := fun r : Ref sig .tc => Buf (Elt F) ((c : Thread nD τ).loc r)) (fun r => outsA m J r c)
    main_v34 ((dat1 (atTc (V9 m (outsA m))) c).arrAt 3 cfg1.N) r

theorem outsA_v3 (J : ℕ) (c : Dev nD) : outsA m J main_v3 c = (dat0 (atTc (V1 m)) c).arrAt 3 cfg0.N := by
  unfold outsA; exact Function.update_self ..

theorem outsB_v3 (J : ℕ) (c : Dev nD) : outsB m J main_v3 c = (dat0 (atTc (V1 m)) c).arrAt 3 cfg0.N := by
  unfold outsB; rw [Function.update_of_ne (by decide)]; exact outsA_v3 m J c

theorem outsB_v34 (J : ℕ) (c : Dev nD) : outsB m J main_v34 c = (dat1 (atTc (V9 m (outsA m))) c).arrAt 3 cfg1.N := by
  unfold outsB; exact Function.update_self ..

/-- The contents before the contraction region depend on the regions' outputs only through the projection's. -/
theorem V9_congr (o o' : Outs (F := F)) (c : Dev nD) (h : o 2 main_v3 c = o' 2 main_v3 c) : V9 m o c = V9 m o' c := by
  unfold V9 V8 V7 V6 V5 V4 V3 V2; rw [h]

theorem V9_outsB (c : Dev nD) : V9 m (outsB m) c = V9 m (outsA m) c :=
  V9_congr m _ _ c ((outsB_v3 m 2 c).trans (outsA_v3 m 2 c).symm)

/-! ## The proof data family and the thread state -/

/-- Each region's proof data at its entry contents. -/
def pdats : (p : Fin 2) → (c : Dev nD) → Dat τ (Elt F) Unit ℕ (UR sig nD τ) ℕ (cfgs p) c
  | ⟨0, _⟩ => fun c => dat0 (atTc (V1 m)) c
  | ⟨1, _⟩ => fun c => dat1 (atTc (V9 m (outsB m))) c

abbrev 𝒱n : Variants := Variants.none
abbrev Ln : GSem nD τ sig → Finset Unit := fun _ => ∅
abbrev lvn : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-! ## At a region's exit its arrays hold what its write-backs leave, every other buffer what it held -/

theorem hF0 (c : Dev nD) (w : Fin cfg0.W) : (pdats m 0 c).arrAt w cfg0.N = atTc (V2 m (outsB m)) c (Pipeline.arrRef spec0 w) :=
  match w with
  | ⟨0, _⟩ => (((dat0 (atTc (V1 m)) c).arrAt_in 0 rfl _).trans (A_eq0 (atTc (V1 m)) c 0)).trans (V2_of m (outsB m) c main_arg0 (by decide)).symm
  | ⟨1, _⟩ => (((dat0 (atTc (V1 m)) c).arrAt_in 1 rfl _).trans (A_eq0 (atTc (V1 m)) c 1)).trans (V2_of m (outsB m) c main_v0 (by decide)).symm
  | ⟨2, _⟩ => (((dat0 (atTc (V1 m)) c).arrAt_in 2 rfl _).trans (A_eq0 (atTc (V1 m)) c 2)).trans (V2_of m (outsB m) c main_v2 (by decide)).symm
  | ⟨3, _⟩ => ((outsB_v3 m 2 c).symm.trans (show V2 m (outsB m) c main_v3 = outsB m 2 main_v3 c from by simp only [V2, Function.update_self]).symm)
  | ⟨_ + 4, h⟩ => absurd h (Nat.not_lt.2 (Nat.le_add_left _ _))

theorem hrest0 (c : Dev nD) : ∀ b, b ∉ Finset.univ.image (Pipeline.arrRef spec0) → atTc (V2 m (outsB m)) c b = atTc (V1 m) c b :=
  fun b hb => V2_of m (outsB m) c b (fun hm => hb (Finset.mem_image.mpr ⟨3, Finset.mem_univ _, (List.mem_singleton.mp hm).symm⟩))

theorem hF1 (c : Dev nD) (w : Fin cfg1.W) : (pdats m 1 c).arrAt w cfg1.N = atTc (V10 m (outsB m)) c (Pipeline.arrRef spec1 w) :=
  match w with
  | ⟨0, _⟩ => (((dat1 (atTc (V9 m (outsB m))) c).arrAt_in 0 rfl _).trans (A_eq1 (atTc (V9 m (outsB m))) c 0)).trans (V10_of m (outsB m) c main_v19 (by decide)).symm
  | ⟨1, _⟩ => (((dat1 (atTc (V9 m (outsB m))) c).arrAt_in 1 rfl _).trans (A_eq1 (atTc (V9 m (outsB m))) c 1)).trans (V10_of m (outsB m) c main_v26 (by decide)).symm
  | ⟨2, _⟩ => (((dat1 (atTc (V9 m (outsB m))) c).arrAt_in 2 rfl _).trans (A_eq1 (atTc (V9 m (outsB m))) c 2)).trans (V10_of m (outsB m) c main_v33 (by decide)).symm
  | ⟨3, _⟩ => by
      have e : (dat1 (atTc (V9 m (outsB m))) c).arrAt 3 cfg1.N = (dat1 (atTc (V9 m (outsA m))) c).arrAt 3 cfg1.N := by
        rw [show atTc (V9 m (outsB m)) = atTc (V9 m (outsA m)) from funext fun c => funext fun b => congrFun (V9_outsB m c) b]
      exact e.trans ((outsB_v34 m 10 c).symm.trans (show V10 m (outsB m) c main_v34 = outsB m 10 main_v34 c from by simp only [V10, Function.update_self]).symm)
  | ⟨_ + 4, h⟩ => absurd h (Nat.not_lt.2 (Nat.le_add_left _ _))

theorem hrest1 (c : Dev nD) : ∀ b, b ∉ Finset.univ.image (Pipeline.arrRef spec1) → atTc (V10 m (outsB m)) c b = atTc (V9 m (outsB m)) c b :=
  fun b hb => V10_of m (outsB m) c b (fun hm => hb (Finset.mem_image.mpr ⟨3, Finset.mem_univ _, (List.mem_singleton.mp hm).symm⟩))

/-! ## The regions as items -/

-- a library lemma stated over the pinned configuration unifies with the printed one only when unification may unfold
-- plain definitions in a metavariable's type
set_option backward.isDefEq.respectTransparency.types false in
/-- Region 0 over the thread state: entered from every unscoped buffer at the contents before it, left at the
    contents after it. Its arrays are split out of the unscoped buffers and put back at what the write-backs leave;
    the generator register goes into the region's invariant and comes out; nothing is owed. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ Ln lvn 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outsB m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (V2 m (outsB m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the contents before it, left at the
    contents after it. Its arrays are split out of the unscoped buffers and put back at what the write-backs leave;
    the generator register goes into the region's invariant and comes out; nothing is owed. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (atTc (V9 m (outsB m))) c).loose
  hwaits := Pipeline.hwaits_of_owed_zero _ _ _ _ Ln lvn 1 fun _ _ => rfl
  pre c := iprop(StableHlo.held (c : Thread nD τ) (Pipeline.ucRefs τ sig) (V9 m (outsB m) c) ∗ Rst c)
  post c := iprop(StableHlo.held (c : Thread nD τ) (Pipeline.ucRefs τ sig) (V10 m (outsB m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (V9 m (outsB m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V9 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V9 m (outsB m)) c) (atTc (V10 m (outsB m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- Every weakly fair execution of the program from memory `m` with zero counters terminates, and every final memory
    holds every unscoped buffer at the last valuation. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = V11 m (outsB m) c b) := by
  refine Pipeline.θ_run_regions_kit_dev (pcfgs (F := F)) adm (pdats m) () cellOf_inj emb₁ defs₀ 𝒱n Ln lvn m ρ main
    (segs m (outsB m) 𝒱n Ln lvn Est () (pdats m) (reg0 m) (reg1 m))
    (fun c Q => by
      rewrite [main_chain c, Seg.run_eq_chain,
        show (segs m (outsB m) 𝒱n Ln lvn Est () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V11 m (outsB m) c))
    (hch := fun c => ⟨.rfl, .rfl, .rfl, .rfl, .rfl, .rfl, .rfl, .rfl, .rfl, .rfl, .rfl,
      sep_mono .rfl (by iintro ⟨-, H⟩; iexact H)⟩)
    (hinit := by
      refine Pipeline.initEach Ln lvn fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outsB m) c b)
    (hfin := fun c s' => by
      iintro ⟨Hh, HSI⟩
      unfold StableHlo.held
      imodintro
      iapply (pointsTo_read_all (Pipeline.ucRefs τ sig) (fun b => (((c : Thread nD τ)).1, b)) (V11 m (outsB m) c) s')
      isplitl [Hh] <;> iassumption)
    (hQ := fun s h c => h c)

/-- An unscoped TensorCore reference is among those the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (V11_main_arg0 m (outsB m) c),
     (h c _ (mem_uc main_arg1 (by decide))).trans (V11_main_arg1 m (outsB m) c),
     (h c _ (mem_uc main_arg2 (by decide))).trans (V11_main_arg2 m (outsB m) c),
     (h c _ (mem_uc main_arg3 (by decide))).trans (V11_main_arg3 m (outsB m) c),
     (h c _ (mem_uc main_arg4 (by decide))).trans (V11_main_arg4 m (outsB m) c),
     (h c _ (mem_uc main_arg5 (by decide))).trans (V11_main_arg5 m (outsB m) c),
     (h c _ (mem_uc main_arg6 (by decide))).trans (V11_main_arg6 m (outsB m) c),
     (h c _ (mem_uc main_arg7 (by decide))).trans (V11_main_arg7 m (outsB m) c),
     (h c _ (mem_uc main_arg8 (by decide))).trans (V11_main_arg8 m (outsB m) c),
     (h c _ (mem_uc main_arg9 (by decide))).trans (V11_main_arg9 m (outsB m) c),
     (h c _ (mem_uc main_arg10 (by decide))).trans (V11_main_arg10 m (outsB m) c)⟩) (run_all m ρ)

end Cert.Kernel.Frame

end
-- ==== Proof.KIBody0.lean ====
/-
  The projection region, one grid point at a time, at any float instance.

  The region's grid has 25 points; point t works on rows 4000·t … 4000·t + 3999 of the node features. Its body loads
  the feature block [4000,128], the whole weight matrix [128,384] and the bias row [1,384], and stores one block
  [4000,384]: the matrix product plus the bias row, rounded. Stated here, for buffer contents `V` at the region's
  entry: the block each window holds at a point, what the body leaves in the output window's buffer as a function of
  the three input blocks, the body's run, and the region's proof data with its body obligation.
-/
import proofs.«181147_j65403761983981_2_alg».proof.Proof.Gen.KernelIdeal.Launch
import proofs.«181147_j65403761983981_2_alg».proof.Proof.Gen.KernelIdeal.Skeleton
import proofs.«181147_j65403761983981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not: the
    feature block moves with the point and is fetched each time; the weights and the bias row do not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4000x128 := Rect.unit (s := S4000x128) ![0, 0] S4000x128.size inb_S4000x128_S4000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S4000x384 := Rect.unit (s := S4000x384) ![0, 0] S4000x384.size inb_S4000x384_S4000x384_0_0

/-! ## What the body leaves in the output window's buffer -/

/-- The output buffer after the body: its one store, of the product-plus-bias of the three loaded blocks. -/
def out0_3 (x0 : Vec F S4000x128 .f32) (x1 : Vec F S128x384 .f32) (x2 : Vec F S1x384 .f32) : Vec F S4000x384 .bf16 :=
  View.canon [⟨r0_3, k0_pay1 (View.ld x0 r0_0) (View.ld x1 r0_1) (View.ld x2 r0_2)⟩]

/-- The one store covers the buffer. -/
theorem cover0_3 (p0 : Vec F S4000x384 .bf16) (y : S4000x384.Idx) :
    ∃ pc ∈ ([⟨r0_3, p0⟩] : List (View.Piece (Elt F) S4000x384 .bf16)), y ∈ pc.1.set :=
  View.cover_of_tiled [⟨r0_3, p0⟩] S4000x384.size (by rfl) y

/-! ## The body's run -/

set_option maxHeartbeats 1000000 in
/-- The body on whole buffers, the inputs' at contents `x0 x1 x2` and the output's at anything, runs to the
    continuation holding the inputs' as they were and the output's at `out0_3` of them. -/
theorem sound_kernel0 (c : Dev nD) (E : Set ℕ) (i : grid0.Coords) (arg1 : Memref sig .tc .vmem S4000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S4000x384 .bf16) (harg4 : arg4.IsWhole)
    (x0 : Vec F S4000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KIBody1.lean ====
/-
  The contraction region, one grid point at a time, at any float instance.

  The region's grid has 123 points; point t works on rows 2048·t … 2048·t + 2047 of the three gathered tables
  [251904,384] (one per clique corner). Its body loads the three blocks [2048,384] and stores one block [2048]: per
  row, the exponential of the scaled lane sum of the symmetrised products. Stated here, for buffer contents `V` at
  the region's entry: the block each window holds at a point, what the body leaves in the output window's buffer as
  a function of the three input blocks, the body's run, and the region's proof data with its body obligation.
-/
import proofs.«181147_j65403761983981_2_alg».proof.Proof.Gen.KernelIdeal.Launch
import proofs.«181147_j65403761983981_2_alg».proof.Proof.Gen.KernelIdeal.Skeleton
import proofs.«181147_j65403761983981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point: each is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x384 := Rect.unit (s := S2048x384) ![0, 0] S2048x384.size inb_S2048x384_S2048x384_0_0
abbrev r1_3 : Rect S2048 := Rect.unit (s := S2048) ![0] S2048.size inb_S2048_S2048_0

/-! ## What the body leaves in the output window's buffer -/

/-- The output buffer after the body: its one store, of the scores of the three loaded blocks' rows. -/
def out1_3 (x0 : Vec F S2048x384 .bf16) (x1 : Vec F S2048x384 .bf16) (x2 : Vec F S2048x384 .bf16) : Vec F S2048 .f32 :=
  View.canon [⟨r1_3, k1_pay1 (View.ld x0 r1_0) (View.ld x1 r1_0) (View.ld x2 r1_0)⟩]

/-- The one store covers the buffer. -/
theorem cover1_3 (p0 : Vec F S2048 .f32) (y : S2048.Idx) :
    ∃ pc ∈ ([⟨r1_3, p0⟩] : List (View.Piece (Elt F) S2048 .f32)), y ∈ pc.1.set :=
  View.cover_of_tiled [⟨r1_3, p0⟩] S2048.size (by rfl) y

/-! ## The body's run -/

set_option maxHeartbeats 1000000 in
/-- The body on whole buffers, the inputs' at contents `x0 x1 x2` and the output's at anything, runs to the
    continuation holding the inputs' as they were and the output's at `out1_3` of them. -/
theorem sound_kernel1 (c : Dev nD) (E : Set ℕ) (i : grid1.Coords) (arg1 : Memref sig .tc .vmem S2048x384 .bf16) (harg1 : arg1.IsWhole) (arg2 : Memref sig .tc .vmem S2048x384 .bf16) (harg2 : arg2.IsWhole) (arg3 : Memref sig .tc .vmem S2048x384 .bf16) (harg3 : arg3.IsWhole) (arg4 : Memref sig .tc .vmem S2048 .f32) (harg4 : arg4.IsWhole)
    (x0 : Vec F S2048x384 .bf16) (x1 : Vec F S2048x384 .bf16) (x2 : Vec F S2048x384 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__contract_kernel i arg1 harg1 arg2 harg2 arg3 harg3 arg4 harg4) K := by
  simp only [cc1__contract_kernel_eq_skeleton]; unfold cc1__contract_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The proof data of the region on core `c`: the arrays as the region finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KIRun.lean ====
/-
  The whole run of the program, at any float instance: the host stretches and the two regions in order, the buffer
  contents named at every boundary.

  Between two items core c holds every unscoped buffer at a known valuation: the launch memory, then each host
  stretch applied in turn, then — after a region — the same with the region's output array replaced by what the
  region's write-backs leave (the fold of the blocks the grid points wrote). The run ends with every unscoped buffer
  at the last valuation; the frame (the arguments end as launched) and the results' values are both read off it.
-/
import proofs.«181147_j65403761983981_2_alg».proof.Proof.Gen.KernelIdeal.Launch
import proofs.«181147_j65403761983981_2_alg».proof.Proof.Gen.KernelIdeal.Skeleton
import proofs.«181147_j65403761983981_2_alg».proof.Proof.Gen.KernelIdeal.Points
import proofs.«181147_j65403761983981_2_alg».proof.Proof.Gen.KernelIdeal.Regions
import proofs.«181147_j65403761983981_2_alg».proof.Proof.KIBody0
import proofs.«181147_j65403761983981_2_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A valuation read at the TensorCore's references. -/
abbrev atTc (W : Dev nD → Valuation τ sig (Elt F)) : (c : Dev nD) → (b : Ref sig .tc) → Buf (Elt F) ((c : Thread nD τ).loc b) :=
  fun c b => W c b

/-! ## What the regions leave in their output arrays -/

/-- After the projection region its output array holds the fold of the 25 written blocks. -/
def outsA : Outs (F := F) := fun _ r c =>
  Function.update (β := fun r : Ref sig .tc => Buf (Elt F) ((c : Thread nD τ).loc r)) (fun r => m ((c : Thread nD τ).loc r))
    main_v3 ((dat0 (atTc (V1 m)) c).arrAt 3 cfg0.N) r

/-- After the contraction region its output array holds the fold of the 123 written blocks. -/
def outsB : Outs (F := F) := fun J r c =>
  Function.update (β := fun r : Ref sig .tc => Buf (Elt F) ((c : Thread nD τ).loc r)) (fun r => outsA m J r c)
    main_v34 ((dat1 (atTc (V9 m (outsA m))) c).arrAt 3 cfg1.N) r

theorem outsA_v3 (J : ℕ) (c : Dev nD) : outsA m J main_v3 c = (dat0 (atTc (V1 m)) c).arrAt 3 cfg0.N := by
  unfold outsA; exact Function.update_self ..

theorem outsB_v3 (J : ℕ) (c : Dev nD) : outsB m J main_v3 c = (dat0 (atTc (V1 m)) c).arrAt 3 cfg0.N := by
  unfold outsB; rw [Function.update_of_ne (by decide)]; exact outsA_v3 m J c

theorem outsB_v34 (J : ℕ) (c : Dev nD) : outsB m J main_v34 c = (dat1 (atTc (V9 m (outsA m))) c).arrAt 3 cfg1.N := by
  unfold outsB; exact Function.update_self ..

/-- The contents before the contraction region depend on the regions' outputs only through the projection's. -/
theorem V9_congr (o o' : Outs (F := F)) (c : Dev nD) (h : o 2 main_v3 c = o' 2 main_v3 c) : V9 m o c = V9 m o' c := by
  unfold V9 V8 V7 V6 V5 V4 V3 V2; rw [h]

theorem V9_outsB (c : Dev nD) : V9 m (outsB m) c = V9 m (outsA m) c :=
  V9_congr m _ _ c ((outsB_v3 m 2 c).trans (outsA_v3 m 2 c).symm)

/-! ## The proof data family and the thread state -/

/-- Each region's proof data at its entry contents. -/
def pdats : (p : Fin 2) → (c : Dev nD) → Dat τ (Elt F) Unit ℕ (UR sig nD τ) ℕ (cfgs p) c
  | ⟨0, _⟩ => fun c => dat0 (atTc (V1 m)) c
  | ⟨1, _⟩ => fun c => dat1 (atTc (V9 m (outsB m))) c

abbrev 𝒱n : Variants := Variants.none
abbrev Ln : GSem nD τ sig → Finset Unit := fun _ => ∅
abbrev lvn : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-! ## At a region's exit its arrays hold what its write-backs leave, every other buffer what it held -/

theorem hF0 (c : Dev nD) (w : Fin cfg0.W) : (pdats m 0 c).arrAt w cfg0.N = atTc (V2 m (outsB m)) c (Pipeline.arrRef spec0 w) :=
  match w with
  | ⟨0, _⟩ => (((dat0 (atTc (V1 m)) c).arrAt_in 0 rfl _).trans (A_eq0 (atTc (V1 m)) c 0)).trans (V2_of m (outsB m) c main_arg0 (by decide)).symm
  | ⟨1, _⟩ => (((dat0 (atTc (V1 m)) c).arrAt_in 1 rfl _).trans (A_eq0 (atTc (V1 m)) c 1)).trans (V2_of m (outsB m) c main_v0 (by decide)).symm
  | ⟨2, _⟩ => (((dat0 (atTc (V1 m)) c).arrAt_in 2 rfl _).trans (A_eq0 (atTc (V1 m)) c 2)).trans (V2_of m (outsB m) c main_v2 (by decide)).symm
  | ⟨3, _⟩ => ((outsB_v3 m 2 c).symm.trans (show V2 m (outsB m) c main_v3 = outsB m 2 main_v3 c from by simp only [V2, Function.update_self]).symm)
  | ⟨_ + 4, h⟩ => absurd h (Nat.not_lt.2 (Nat.le_add_left _ _))

theorem hrest0 (c : Dev nD) : ∀ b, b ∉ Finset.univ.image (Pipeline.arrRef spec0) → atTc (V2 m (outsB m)) c b = atTc (V1 m) c b :=
  fun b hb => V2_of m (outsB m) c b (fun hm => hb (Finset.mem_image.mpr ⟨3, Finset.mem_univ _, (List.mem_singleton.mp hm).symm⟩))

theorem hF1 (c : Dev nD) (w : Fin cfg1.W) : (pdats m 1 c).arrAt w cfg1.N = atTc (V10 m (outsB m)) c (Pipeline.arrRef spec1 w) :=
  match w with
  | ⟨0, _⟩ => (((dat1 (atTc (V9 m (outsB m))) c).arrAt_in 0 rfl _).trans (A_eq1 (atTc (V9 m (outsB m))) c 0)).trans (V10_of m (outsB m) c main_v19 (by decide)).symm
  | ⟨1, _⟩ => (((dat1 (atTc (V9 m (outsB m))) c).arrAt_in 1 rfl _).trans (A_eq1 (atTc (V9 m (outsB m))) c 1)).trans (V10_of m (outsB m) c main_v26 (by decide)).symm
  | ⟨2, _⟩ => (((dat1 (atTc (V9 m (outsB m))) c).arrAt_in 2 rfl _).trans (A_eq1 (atTc (V9 m (outsB m))) c 2)).trans (V10_of m (outsB m) c main_v33 (by decide)).symm
  | ⟨3, _⟩ => by
      have e : (dat1 (atTc (V9 m (outsB m))) c).arrAt 3 cfg1.N = (dat1 (atTc (V9 m (outsA m))) c).arrAt 3 cfg1.N := by
        rw [show atTc (V9 m (outsB m)) = atTc (V9 m (outsA m)) from funext fun c => funext fun b => congrFun (V9_outsB m c) b]
      exact e.trans ((outsB_v34 m 10 c).symm.trans (show V10 m (outsB m) c main_v34 = outsB m 10 main_v34 c from by simp only [V10, Function.update_self]).symm)
  | ⟨_ + 4, h⟩ => absurd h (Nat.not_lt.2 (Nat.le_add_left _ _))

theorem hrest1 (c : Dev nD) : ∀ b, b ∉ Finset.univ.image (Pipeline.arrRef spec1) → atTc (V10 m (outsB m)) c b = atTc (V9 m (outsB m)) c b :=
  fun b hb => V10_of m (outsB m) c b (fun hm => hb (Finset.mem_image.mpr ⟨3, Finset.mem_univ _, (List.mem_singleton.mp hm).symm⟩))

/-! ## The regions as items -/

-- a library lemma stated over the pinned configuration unifies with the printed one only when unification may unfold
-- plain definitions in a metavariable's type
set_option backward.isDefEq.respectTransparency.types false in
/-- Region 0 over the thread state: entered from every unscoped buffer at the contents before it, left at the
    contents after it. Its arrays are split out of the unscoped buffers and put back at what the write-backs leave;
    the generator register goes into the region's invariant and comes out; nothing is owed. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ Ln lvn 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outsB m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (V2 m (outsB m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the contents before it, left at the
    contents after it. Its arrays are split out of the unscoped buffers and put back at what the write-backs leave;
    the generator register goes into the region's invariant and comes out; nothing is owed. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (atTc (V9 m (outsB m))) c).loose
  hwaits := Pipeline.hwaits_of_owed_zero _ _ _ _ Ln lvn 1 fun _ _ => rfl
  pre c := iprop(StableHlo.held (c : Thread nD τ) (Pipeline.ucRefs τ sig) (V9 m (outsB m) c) ∗ Rst c)
  post c := iprop(StableHlo.held (c : Thread nD τ) (Pipeline.ucRefs τ sig) (V10 m (outsB m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (V9 m (outsB m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V9 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V9 m (outsB m)) c) (atTc (V10 m (outsB m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- Every weakly fair execution of the program from memory `m` with zero counters terminates, and every final memory
    holds every unscoped buffer at the last valuation. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = V11 m (outsB m) c b) := by
  refine Pipeline.θ_run_regions_kit_dev (pcfgs (F := F)) adm (pdats m) () cellOf_inj emb₁ defs₀ 𝒱n Ln lvn m ρ main
    (segs m (outsB m) 𝒱n Ln lvn Est () (pdats m) (reg0 m) (reg1 m))
    (fun c Q => by
      rewrite [main_chain c, Seg.run_eq_chain,
        show (segs m (outsB m) 𝒱n Ln lvn Est () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V11 m (outsB m) c))
    (hch := fun c => ⟨.rfl, .rfl, .rfl, .rfl, .rfl, .rfl, .rfl, .rfl, .rfl, .rfl, .rfl,
      sep_mono .rfl (by iintro ⟨-, H⟩; iexact H)⟩)
    (hinit := by
      refine Pipeline.initEach Ln lvn fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outsB m) c b)
    (hfin := fun c s' => by
      iintro ⟨Hh, HSI⟩
      unfold StableHlo.held
      imodintro
      iapply (pointsTo_read_all (Pipeline.ucRefs τ sig) (fun b => (((c : Thread nD τ)).1, b)) (V11 m (outsB m) c) s')
      isplitl [Hh] <;> iassumption)
    (hQ := fun s h c => h c)

/-- An unscoped TensorCore reference is among those the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (V11_main_arg0 m (outsB m) c),
     (h c _ (mem_uc main_arg1 (by decide))).trans (V11_main_arg1 m (outsB m) c),
     (h c _ (mem_uc main_arg2 (by decide))).trans (V11_main_arg2 m (outsB m) c),
     (h c _ (mem_uc main_arg3 (by decide))).trans (V11_main_arg3 m (outsB m) c),
     (h c _ (mem_uc main_arg4 (by decide))).trans (V11_main_arg4 m (outsB m) c),
     (h c _ (mem_uc main_arg5 (by decide))).trans (V11_main_arg5 m (outsB m) c),
     (h c _ (mem_uc main_arg6 (by decide))).trans (V11_main_arg6 m (outsB m) c),
     (h c _ (mem_uc main_arg7 (by decide))).trans (V11_main_arg7 m (outsB m) c),
     (h c _ (mem_uc main_arg8 (by decide))).trans (V11_main_arg8 m (outsB m) c),
     (h c _ (mem_uc main_arg9 (by decide))).trans (V11_main_arg9 m (outsB m) c),
     (h c _ (mem_uc main_arg10 (by decide))).trans (V11_main_arg10 m (outsB m) c)⟩) (run_all m ρ)

end Cert.KernelIdeal.Frame

end
-- ==== Proof.KIHost.lean ====
/-
  What the host stretches of the program leave in the buffers the two regions and the results read, at any float
  instance and for any contents `o` the regions leave in their output arrays.

  Before the projection region: the weights joined column-wise [Qw | Kw | Vw], and the biases joined and viewed as a
  row. Between the regions: for each clique corner, its row of the index table padded with 1904 zeros, negative
  entries shifted up by the number of nodes, and the rows of the projection's output gathered at those indices.
  After the contraction region: its output cut back to the 250000 cliques, each score repeated three times and summed
  into the edges, each edge sum repeated twice and summed into the nodes.
-/
import proofs.«181147_j65403761983981_2_alg».proof.Proof.Gen.KernelIdeal.Regions
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (o : Outs (F := F)) (c : Dev nD)

/-! ## Before the projection region -/

/-- The three weight matrices side by side. -/
def wcat (qw kw vw : FVec F S128x128 .f32) : FVec F S128x384 .f32 :=
  concatenate S128x384 1 [⟨S128x128, qw⟩, ⟨S128x128, kw⟩, ⟨S128x128, vw⟩] concatenates_S128x128_S128x128_S128x128_S128x384_d1

/-- The three biases end to end, as one row. -/
def brow (qb kb vb : FVec F S128 .f32) : FVec F S1x384 .f32 :=
  shapeCast S1x384 (concatenate S384 0 [⟨S128, qb⟩, ⟨S128, kb⟩, ⟨S128, vb⟩] concatenates_S128_S128_S128_S384_d0) shapeCasts_S384_S1x384

theorem V1_arg0 : V1 m c main_arg0 = m ((c : Thread nD τ).loc main_arg0) := V1_of m c main_arg0 (by decide)

theorem V1_v0 : V1 m c main_v0 = wcat (m ((c : Thread nD τ).loc main_arg5)) (m ((c : Thread nD τ).loc main_arg7)) (m ((c : Thread nD τ).loc main_arg9)) := by
  show StableHlo.after hostOps0 (V0 m c) (Proc.devRef .tc main_v0) = _
  after_results
  rfl

theorem V1_v2 : V1 m c main_v2 = brow (m ((c : Thread nD τ).loc main_arg6)) (m ((c : Thread nD τ).loc main_arg8)) (m ((c : Thread nD τ).loc main_arg10)) := by
  show StableHlo.after hostOps0 (V0 m c) (Proc.devRef .tc main_v2) = _
  after_results
  rfl

/-! ## Between the regions -/

/-- Row `k` of the clique table. -/
def row0 (t : IVec S3x250000 32) : IVec S250000 32 :=
  shapeCast S250000 (extractStridedSlice S1x250000 ![0, 0] t slices_S3x250000_S1x250000_0_0) shapeCasts_S1x250000_S250000
def row1 (t : IVec S3x250000 32) : IVec S250000 32 :=
  shapeCast S250000 (extractStridedSlice S1x250000 ![1, 0] t slices_S3x250000_S1x250000_1_0) shapeCasts_S1x250000_S250000
def row2 (t : IVec S3x250000 32) : IVec S250000 32 :=
  shapeCast S250000 (extractStridedSlice S1x250000 ![2, 0] t slices_S3x250000_S1x250000_2_0) shapeCasts_S1x250000_S250000

/-- A corner's indices padded to the grid's multiple, negative ones shifted up, as an index column. -/
def idxCol (r : IVec S250000 32) : IVec S251904x1 32 :=
  broadcastInDim S251904x1 ![0] bcast_S251904_S251904x1_0
    (select (cmpi .slt (pad S251904 ![0] ![1904] ![0] r (constantI S_ 32 0#32) pads_S250000_S251904_019040 h_S_)
        (broadcastInDim S251904 ![] bcast_S_S251904 (constantI S_ 32 0#32)))
      (addi (pad S251904 ![0] ![1904] ![0] r (constantI S_ 32 0#32) pads_S250000_S251904_019040 h_S_)
        (broadcastInDim S251904 ![] bcast_S_S251904 (constantI S_ 32 100000#32)))
      (pad S251904 ![0] ![1904] ![0] r (constantI S_ 32 0#32) pads_S250000_S251904_019040 h_S_))

/-- The projection's rows gathered at a corner's indices. -/
def gathered (T : FVec F S100000x384 .bf16) (r : IVec S250000 32) : FVec F S251904x384 .bf16 :=
  Host.gather gather_S100000x384_S251904x1_S251904x384_1_0_n_n_0_1_1384 T (idxCol r)

theorem V2_arg3 : V2 m o c main_arg3 = m ((c : Thread nD τ).loc main_arg3) :=
  (V2_of m o c main_arg3 (by decide)).trans (V1_of m c main_arg3 (by decide))

theorem V3_v5 : V3 m o c main_v5 = row0 (m ((c : Thread nD τ).loc main_arg3)) := by
  show StableHlo.after hostOps1 (V2 m o c) (Proc.devRef .tc main_v5) = _
  after_results
  rw [V2_arg3]; rfl
theorem V3_v7 : V3 m o c main_v7 = row1 (m ((c : Thread nD τ).loc main_arg3)) := by
  show StableHlo.after hostOps1 (V2 m o c) (Proc.devRef .tc main_v7) = _
  after_results
  rw [V2_arg3]; rfl
theorem V3_v9 : V3 m o c main_v9 = row2 (m ((c : Thread nD τ).loc main_arg3)) := by
  show StableHlo.after hostOps1 (V2 m o c) (Proc.devRef .tc main_v9) = _
  after_results
  rw [V2_arg3]; rfl
theorem V3_c : V3 m o c main_c = constantI S_ 32 0#32 := by
  show StableHlo.after hostOps1 (V2 m o c) (Proc.devRef .tc main_c) = _
  after_results
theorem V2_v3 : V2 m o c main_v3 = o 2 main_v3 c := by simp only [V2, Function.update_self]
theorem V3_v3 : V3 m o c main_v3 = o 2 main_v3 c :=
  (V3_of m o c main_v3 (by decide)).trans (Function.update_self ..)

/-- A corner's padded indices, as the call that pads them leaves them. -/
def padded (r : IVec S250000 32) : IVec S251904 32 :=
  pad S251904 ![0] ![1904] ![0] r (constantI S_ 32 0#32) pads_S250000_S251904_019040 h_S_

theorem V4_v10 : V4 m o c main_v10 = padded (row0 (m ((c : Thread nD τ).loc main_arg3))) := by
  show StableHlo.after hostOps1_1 (V3 m o c) (Proc.devRef .tc main_v10) = _
  after_results
  rw [V2_arg3]; rfl

theorem V5_c0 : V5 m o c main_c_0 = constantI S_ 32 0#32 := by
  show StableHlo.after hostOps1_2 (V4 m o c) (Proc.devRef .tc main_c_0) = _
  after_results
theorem V5_v7 : V5 m o c main_v7 = row1 (m ((c : Thread nD τ).loc main_arg3)) :=
  (V5_of m o c main_v7 (by decide)).trans ((V4_of m o c main_v7 (by decide)).trans (V3_v7 m o c))

theorem V6_v11 : V6 m o c main_v11 = padded (row1 (m ((c : Thread nD τ).loc main_arg3))) := by
  show StableHlo.after hostOps1_3 (V5 m o c) (Proc.devRef .tc main_v11) = _
  after_results
  rw [V2_arg3]; rfl

theorem V7_c1 : V7 m o c main_c_1 = constantI S_ 32 0#32 := by
  show StableHlo.after hostOps1_4 (V6 m o c) (Proc.devRef .tc main_c_1) = _
  after_results
theorem V7_v9 : V7 m o c main_v9 = row2 (m ((c : Thread nD τ).loc main_arg3)) :=
  (V7_of m o c main_v9 (by decide)).trans ((V6_of m o c main_v9 (by decide)).trans ((V5_of m o c main_v9 (by decide)).trans
    ((V4_of m o c main_v9 (by decide)).trans (V3_v9 m o c))))

theorem V8_v12 : V8 m o c main_v12 = padded (row2 (m ((c : Thread nD τ).loc main_arg3))) := by
  show StableHlo.after hostOps1_5 (V7 m o c) (Proc.devRef .tc main_v12) = _
  after_results
  rw [V2_arg3]; rfl

theorem V8_v10 : V8 m o c main_v10 = padded (row0 (m ((c : Thread nD τ).loc main_arg3))) :=
  (V8_of m o c main_v10 (by decide)).trans ((V7_of m o c main_v10 (by decide)).trans ((V6_of m o c main_v10 (by decide)).trans
    ((V5_of m o c main_v10 (by decide)).trans (V4_v10 m o c))))
theorem V8_v11 : V8 m o c main_v11 = padded (row1 (m ((c : Thread nD τ).loc main_arg3))) :=
  (V8_of m o c main_v11 (by decide)).trans ((V7_of m o c main_v11 (by decide)).trans (V6_v11 m o c))
theorem V8_v3 : V8 m o c main_v3 = o 2 main_v3 c :=
  (V8_of m o c main_v3 (by decide)).trans ((V7_of m o c main_v3 (by decide)).trans ((V6_of m o c main_v3 (by decide)).trans
    ((V5_of m o c main_v3 (by decide)).trans ((V4_of m o c main_v3 (by decide)).trans (V3_v3 m o c)))))

theorem V9_v19 : V9 m o c main_v19 = gathered (o 2 main_v3 c) (row0 (m ((c : Thread nD τ).loc main_arg3))) := by
  show StableHlo.after hostOps1_6 (V8 m o c) (Proc.devRef .tc main_v19) = _
  after_results_simp
  rw [V2_arg3, V2_v3]; rfl
theorem V9_v26 : V9 m o c main_v26 = gathered (o 2 main_v3 c) (row1 (m ((c : Thread nD τ).loc main_arg3))) := by
  show StableHlo.after hostOps1_6 (V8 m o c) (Proc.devRef .tc main_v26) = _
  after_results_simp
  rw [V2_arg3, V2_v3]; rfl
theorem V9_v33 : V9 m o c main_v33 = gathered (o 2 main_v3 c) (row2 (m ((c : Thread nD τ).loc main_arg3))) := by
  show StableHlo.after hostOps1_6 (V8 m o c) (Proc.devRef .tc main_v33) = _
  after_results_simp
  rw [V2_arg3, V2_v3]; rfl

/-! ## After the contraction region -/

/-- The scores of the 250000 cliques, cut out of the padded output. -/
def cut (d : FVec F S251904 .f32) : FVec F S250000 .f32 := extractStridedSlice S250000 ![0] d slices_S251904_S250000_0

/-- The clique scores, each repeated three times, summed into the edges. -/
def edgeSums (d2 : FVec F S250000 .f32) (a4 : IVec S2x750000 32) : FVec F S1600000 .f32 :=
  Host.scatterAdd scatter_S1600000_S750000x1_S750000_n_0_0_1 (broadcastInDim S1600000 ![] bcast_S_S1600000 (constant S_ .f32 0x00000000#32))
    (broadcastInDim S750000x1 ![0] bcast_S750000_S750000x1_0 (shapeCast S750000 (extractStridedSlice S1x750000 ![1, 0] a4 slices_S2x750000_S1x750000_1_0) shapeCasts_S1x750000_S750000))
    (shapeCast S750000 (broadcastInDim S250000x3 ![0] bcast_S250000_S250000x3_0 d2) shapeCasts_S250000x3_S750000)

/-- The edge sums, each repeated twice, summed into the nodes. -/
def nodeSums (d1 : FVec F S1600000 .f32) (a2 : IVec S2x3200000 32) : FVec F S100000 .f32 :=
  Host.scatterAdd scatter_S100000_S3200000x1_S3200000_n_0_0_1 (broadcastInDim S100000 ![] bcast_S_S100000 (constant S_ .f32 0x00000000#32))
    (broadcastInDim S3200000x1 ![0] bcast_S3200000_S3200000x1_0 (shapeCast S3200000 (extractStridedSlice S1x3200000 ![1, 0] a2 slices_S2x3200000_S1x3200000_1_0) shapeCasts_S1x3200000_S3200000))
    (shapeCast S3200000 (broadcastInDim S1600000x2 ![0] bcast_S1600000_S1600000x2_0 d1) shapeCasts_S1600000x2_S3200000)

theorem V10_keep (r : Ref sig .tc) (h10 : r ∉ ([main_v34] : List (Ref sig .tc))) (h9 : r ∉ hostOps1_6_W) (h8 : r ∉ hostOps1_5_W)
    (h7 : r ∉ hostOps1_4_W) (h6 : r ∉ hostOps1_3_W) (h5 : r ∉ hostOps1_2_W) (h4 : r ∉ hostOps1_1_W) (h3 : r ∉ hostOps1_W)
    (h2 : r ∉ ([main_v3] : List (Ref sig .tc))) (h1 : r ∉ hostOps0_W) : V10 m o c r = m ((c : Thread nD τ).loc r) :=
  (V10_of m o c r h10).trans <| (V9_of m o c r h9).trans <| (V8_of m o c r h8).trans <| (V7_of m o c r h7).trans <|
    (V6_of m o c r h6).trans <| (V5_of m o c r h5).trans <| (V4_of m o c r h4).trans <| (V3_of m o c r h3).trans <|
    (V2_of m o c r h2).trans <| (V1_of m c r h1)

theorem V10_v34 : V10 m o c main_v34 = o 10 main_v34 c := by simp only [V10, Function.update_self]

theorem V11_v35 : V11 m o c main_v35 = cut (o 10 main_v34 c) := by
  show StableHlo.after hostOps2 (V10 m o c) (Proc.devRef .tc main_v35) = _
  after_results_simp
  rw [V10_v34]; rfl

theorem V11_v42 : V11 m o c main_v42 = edgeSums (cut (o 10 main_v34 c)) (m ((c : Thread nD τ).loc main_arg4)) := by
  show StableHlo.after hostOps2 (V10 m o c) (Proc.devRef .tc main_v42) = _
  after_results_simp
  rw [V10_v34, V10_keep m o c main_arg4 (by decide) (by decide) (by decide) (by decide) (by decide) (by decide) (by decide) (by decide) (by decide) (by decide)]; rfl

theorem V11_v49 : V11 m o c main_v49
    = nodeSums (edgeSums (cut (o 10 main_v34 c)) (m ((c : Thread nD τ).loc main_arg4))) (m ((c : Thread nD τ).loc main_arg2)) := by
  show StableHlo.after hostOps2 (V10 m o c) (Proc.devRef .tc main_v49) = _
  after_results_simp
  rw [V10_v34, V10_keep m o c main_arg4 (by decide) (by decide) (by decide) (by decide) (by decide) (by decide) (by decide) (by decide) (by decide) (by decide),
    V10_keep m o c main_arg2 (by decide) (by decide) (by decide) (by decide) (by decide) (by decide) (by decide) (by decide) (by decide) (by decide)]; rfl

end Cert.KernelIdeal.HostReads

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«181147_j65403761983981_2_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.LibColSlice.lean ====
/-
  A block of columns of a matrix read at an index: the unit-stride slice of an [a, b] matrix that keeps every row and
  the c columns from offset o on reads, at (p, e), the matrix at (p, o + e). For any extents and any element type.
-/
import Idealize.ShloMosaic.Lib.Pipeline.Value
import Idealize.ShloMosaic.Lib.ValueIdx

namespace Idealize.ShloMosaic.ValueIdx

variable {α : Type}

/-- A column slice `[a, b] → [a, c]` at offset `o` reads, at `(p, e)`, the operand at row `p` and the column
    `d` whose number is `o + e`. -/
theorem colSlice_apply {a b c : ℕ} (o : ℕ) (x : (⟨2, ![a, b]⟩ : Shape).Idx → α)
    (h : (⟨2, ![a, b]⟩ : Shape).Slices ![0, o] ⟨2, ![a, c]⟩) (p : Fin a) (e : Fin c) (d : Fin b)
    (hd : d.val = o + e.val) :
    extractStridedSlice (⟨2, ![a, c]⟩ : Shape) ![0, o] x h (ix2 p e) = x (ix2 p d) :=
  extractStridedSlice_apply ![0, o] x h (ix2 p e) (ix2 p d) fun ax => by
    match ax with
    | ⟨0, _⟩ => exact (Nat.zero_add p.val).symm
    | ⟨1, _⟩ => exact hd

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.KIPay.lean ====
/-
  The two bodies' arithmetic, read at an entry, on the extended reals.

  The projection body: entry (r, j) of its stored block is the dense layer of row r of the feature block against
  column j of the weights, plus entry j of the bias row (roundings are the identity on the extended reals).
  The contraction body: entry r of its stored block is exp of the scaled lane sum; the lane term at column d multiplies
  entries of row r of the three loaded blocks, a query entry at column d, a key entry at column 128 + d and a value
  entry at column 256 + d, in six corner assignments.
-/
import proofs.«181147_j65403761983981_2_alg».proof.Proof.Gen.KernelIdeal.Skeleton
import proofs.«181147_j65403761983981_2_alg».proof.Proof.LibDenseRow
import proofs.«181147_j65403761983981_2_alg».proof.Proof.LibColSlice
import proofs.«181147_j65403761983981_2_alg».proof.Proof.LibRowSum
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The projection body -/

theorem lhs0 (j : S4000x384.Idx) (q : dot_S4000x128_S128x384_S4000x384_1_0_0_1_n_n.contr.Idx) :
    (dot_S4000x128_S128x384_S4000x384_1_0_0_1_n_n.lhsIdx j q 0).val = (j 0).val := by
  unfold DotDims.lhsIdx
  rw [dif_neg (show ¬(0 : Fin S4000x128.rank) ∈ dot_S4000x128_S128x384_S4000x384_1_0_0_1_n_n.lhsBatch by decide),
    dif_pos (show (0 : Fin S4000x128.rank) ∈ dot_S4000x128_S128x384_S4000x384_1_0_0_1_n_n.lhsNonContracting by decide)]
  rfl

theorem rhs1 (j : S4000x384.Idx) (q : dot_S4000x128_S128x384_S4000x384_1_0_0_1_n_n.contr.Idx) :
    (dot_S4000x128_S128x384_S4000x384_1_0_0_1_n_n.rhsIdx j q 1).val = (j 1).val := by
  unfold DotDims.rhsIdx
  rw [dif_neg (show ¬(1 : Fin S128x384.rank) ∈ dot_S4000x128_S128x384_S4000x384_1_0_0_1_n_n.rhsBatch by decide),
    dif_pos (show (1 : Fin S128x384.rank) ∈ dot_S4000x128_S128x384_S4000x384_1_0_0_1_n_n.rhsNonContracting by decide)]
  rfl

/-- Entry (r, j) of the projection body's stored block. -/
theorem proj_apply (x0 : FVec Ideal S4000x128 .f32) (x1 : FVec Ideal S128x384 .f32) (x2 : FVec Ideal S1x384 .f32)
    (r : Fin 4000) (j : Fin 384) :
    k0_pay1 (F := Ideal) x0 x1 x2 (ix2 r j) = GcnDense.entry x0 x1 x2 r j := by
  refine (GcnDense.kernel_layer_apply dot_S4000x128_S128x384_S4000x384_1_0_0_1_n_n rfl rfl rfl rfl lhs0 rhs1 none
    (truncf .bf16 x0 bitsLt_bf16_f32) (truncf .bf16 (shapeCast S128x384 x1 shapeCasts_S128x384_S128x384) bitsLt_bf16_f32)
    x2 shapeCasts_S1x384_S1x384 broadcasts_S1x384_S4000x384 r j).trans ?_
  rw [shapeCast_self]
  rfl

/-! ## The contraction body -/

/-- Column `o + d` of a 384-wide row. -/
abbrev colAt (o : ℕ) (ho : o + 128 ≤ 384) (d : Fin 128) : Fin 384 := ⟨o + d.val, by omega⟩

/-- The lane term of row `r` at column `d`: query, key and value entries of the three blocks' rows. -/
def laneRow {n : ℕ} (a b c : (⟨2, ![n, 384]⟩ : Shape).Idx → EReal) (r : Fin n) (d : Fin 128) : EReal :=
  a (ix2 r (colAt 0 (by omega) d)) * b (ix2 r (colAt 128 (by omega) d)) * c (ix2 r (colAt 256 (by omega) d))
    + b (ix2 r (colAt 0 (by omega) d)) * c (ix2 r (colAt 128 (by omega) d)) * a (ix2 r (colAt 256 (by omega) d))
    + c (ix2 r (colAt 0 (by omega) d)) * a (ix2 r (colAt 128 (by omega) d)) * b (ix2 r (colAt 256 (by omega) d))
    + b (ix2 r (colAt 0 (by omega) d)) * a (ix2 r (colAt 128 (by omega) d)) * c (ix2 r (colAt 256 (by omega) d))
    + c (ix2 r (colAt 0 (by omega) d)) * b (ix2 r (colAt 128 (by omega) d)) * a (ix2 r (colAt 256 (by omega) d))
    + a (ix2 r (colAt 0 (by omega) d)) * c (ix2 r (colAt 128 (by omega) d)) * b (ix2 r (colAt 256 (by omega) d))

/-- Entry r of the contraction body's stored block. -/
theorem contract_apply (v0 v2 v4 : FVec Ideal S2048x384 .bf16) (r : Fin 2048) :
    k1_pay1 (F := Ideal) v0 v2 v4 (ix1 r)
      = Ideal.exp ((∑ d : Fin 128, laneRow v0 v2 v4 r d) * Ideal.ofBits .f32 0x3D2AAAAB#32) := by
  unfold k1_pay1
  show Ideal.exp (_ * Ideal.ofBits .f32 0x3D2AAAAB#32) = _
  refine congrArg (fun z => Ideal.exp (z * Ideal.ofBits .f32 0x3D2AAAAB#32)) ?_
  refine (multiReduction_add_rows_apply _ reduces_S2048x128_S2048 (.inl rfl) rfl r).trans ?_
  refine Finset.sum_congr rfl fun d _ => ?_
  simp only [addf_apply, mulf_apply, extf_apply, shapeCast_self]
  rw [colSlice_apply 0 v0 slices_S2048x384_o0_0_S2048x128 r d (colAt 0 (by omega) d) rfl,
    colSlice_apply 128 v0 slices_S2048x384_o0_128_S2048x128 r d (colAt 128 (by omega) d) rfl,
    colSlice_apply 256 v0 slices_S2048x384_o0_256_S2048x128 r d (colAt 256 (by omega) d) rfl,
    colSlice_apply 0 v2 slices_S2048x384_o0_0_S2048x128 r d (colAt 0 (by omega) d) rfl,
    colSlice_apply 128 v2 slices_S2048x384_o0_128_S2048x128 r d (colAt 128 (by omega) d) rfl,
    colSlice_apply 256 v2 slices_S2048x384_o0_256_S2048x128 r d (colAt 256 (by omega) d) rfl,
    colSlice_apply 0 v4 slices_S2048x384_o0_0_S2048x128 r d (colAt 0 (by omega) d) rfl,
    colSlice_apply 128 v4 slices_S2048x384_o0_128_S2048x128 r d (colAt 128 (by omega) d) rfl,
    colSlice_apply 256 v4 slices_S2048x384_o0_256_S2048x128 r d (colAt 256 (by omega) d) rfl]
  rfl

end Cert.KernelIdeal.Pay

end
-- ==== Proof.KIVal0.lean ====
/-
  The projection region's output array after the region, on the extended reals: one function of the arrays the
  region finds.

  Point t of the grid writes rows 4000·t … 4000·t + 3999; row p of its block is the dense layer of row 4000·t + p of
  the feature table against the whole weight matrix and bias row. The 25 blocks tile the 100000 rows, so the array
  ends holding, at (n, j), the dense layer of feature row n at column j.
-/
import proofs.«181147_j65403761983981_2_alg».proof.Proof.KIBody0
import proofs.«181147_j65403761983981_2_alg».proof.Proof.KIPay
import Idealize.ShloMosaic.Lib.Pipeline.Value

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The dense layer of every feature row, as one array [100000, 384]. -/
def projAll (x : S100000x128.Idx → EReal) (w : S128x384.Idx → EReal) (b : S1x384.Idx → EReal) : S100000x384.Idx → EReal :=
  fun i => GcnDense.entry x w b (⟨(i 0).val, (i 0).isLt⟩ : Fin 100000) (⟨(i 1).val, (i 1).isLt⟩ : Fin 384)

/-- One entry of a point's block against one entry of the whole array: equal when the block's row is the array's
    row, and the weights and the bias are the whole ones. -/
theorem point0 (x0 : FVec Ideal S4000x128 .f32) (x1 : FVec Ideal S128x384 .f32) (x2 : FVec Ideal S1x384 .f32)
    (X : S100000x128.Idx → EReal) (W : S128x384.Idx → EReal) (B : S1x384.Idx → EReal) (p : Fin 4000) (q : Fin 384) (n : Fin 100000)
    (h0 : ∀ k : Fin 128, x0 (ix2 p k) = X (ix2 n k)) (h1 : ∀ k : Fin 128, x1 (ix2 k q) = W (ix2 k q))
    (h2 : x2 (ix2 (0 : Fin 1) q) = B (ix2 (0 : Fin 1) q)) :
    k0_pay1 (F := Ideal) x0 x1 x2 (ix2 p q) = GcnDense.entry X W B n q :=
  (Pay.proj_apply x0 x1 x2 p q).trans (GcnDense.entry_congr x0 x1 x2 X W B p n q h0 h1 h2)

/-- The printed index maps over the grid: the feature window and the output window sit at block row t, the weights
    and the bias row do not move. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block at any point is the whole matrix. -/
theorem iblk0_1 (c : Dev nD) (t : Fin cfg0.N) : iblk0 V c 1 t = V c main_v0 := by
  obtain ⟨-, -, e2, e3, -, -, -, -⟩ := idx_facts0 t
  funext y
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; omega
  | ⟨1, _⟩ => show win0_1.index t (1 : Fin 2) * 384 + 1 * (y 1).val = (y 1).val; omega

/-- The bias row's block at any point is the whole row. -/
theorem iblk0_2 (c : Dev nD) (t : Fin cfg0.N) : iblk0 V c 2 t = V c main_v2 := by
  obtain ⟨-, -, -, -, e4, e5, -, -⟩ := idx_facts0 t
  funext y
  show V c main_v2 (((cfg0.win 2).blk t).view.emb y) = V c main_v2 y
  refine congrArg (V c main_v2) (funext fun a => Fin.ext ?_)
  match a with
  | ⟨0, _⟩ => show win0_2.index t (0 : Fin 2) * 1 + 1 * (y 0).val = (y 0).val; omega
  | ⟨1, _⟩ => show win0_2.index t (1 : Fin 2) * 384 + 1 * (y 1).val = (y 1).val; omega

/-- Row p of the feature block at point t is row 4000·t + p of the table. -/
theorem iblk0_0 (c : Dev nD) (t : Fin cfg0.N) (p : Fin 4000) (k : Fin 128) (n : Fin 100000) (hn : n.val = t.val * 4000 + p.val) :
    iblk0 V c 0 t (ix2 p k) = V c main_arg0 (ix2 n k) := by
  obtain ⟨e0, e1, -, -, -, -, -, -⟩ := idx_facts0 t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 4000 + 1 * p.val = n.val; omega
  | ⟨1, _⟩ => show win0_0.index t (1 : Fin 2) * 128 + 1 * k.val = k.val; omega

/-- What point t writes back is block t of the dense layer of the whole table. -/
theorem flushed0_eq (c : Dev nD) (t : Fin cfg0.N) :
    (dat0 V c).flushed 3 t = ((cfg0.win 3).blk t).view.read (Elt Ideal) (projAll (V c main_arg0) (V c main_v0) (V c main_v2)) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S128x384) hz2, View.ld_unit_zero (S := S1x384) hz2]
  obtain ⟨-, -, -, -, -, -, e6, e7⟩ := idx_facts0 t
  have ht : t.val < 25 := lt_of_lt_of_eq t.isLt N_0
  funext j
  obtain ⟨p, q, rfl⟩ : ∃ (p : Fin 4000) (q : Fin 384), j = ix2 p q := ⟨j 0, j 1, eq_ix2 j⟩
  have hn : t.val * 4000 + p.val < 100000 := by have := p.isLt; omega
  refine (point0 (iblk0 V c 0 t) (iblk0 V c 1 t) (iblk0 V c 2 t) (V c main_arg0) (V c main_v0) (V c main_v2) p q ⟨t.val * 4000 + p.val, hn⟩
    (fun k => iblk0_0 V c t p k _ rfl) (fun k => congrFun (iblk0_1 V c t) (ix2 k q)) (congrFun (iblk0_2 V c t) (ix2 (0 : Fin 1) q))).trans ?_
  show _ = projAll (V c main_arg0) (V c main_v0) (V c main_v2) (((cfg0.win 3).blk t).view.emb (ix2 p q))
  unfold projAll
  have r0 : ((((cfg0.win 3).blk t).view.emb (ix2 p q)) 0).val = t.val * 4000 + p.val := by
    show win0_3.index t (0 : Fin 2) * 4000 + 1 * p.val = _; omega
  have r1 : ((((cfg0.win 3).blk t).view.emb (ix2 p q)) 1).val = q.val := by
    show win0_3.index t (1 : Fin 2) * 384 + 1 * q.val = _; omega
  have e0' : (⟨t.val * 4000 + p.val, hn⟩ : Fin 100000)
      = ⟨((((cfg0.win 3).blk t).view.emb (ix2 p q)) 0).val, ((((cfg0.win 3).blk t).view.emb (ix2 p q)) 0).isLt⟩ := Fin.ext r0.symm
  have e1' : q = (⟨((((cfg0.win 3).blk t).view.emb (ix2 p q)) 1).val, ((((cfg0.win 3).blk t).view.emb (ix2 p q)) 1).isLt⟩ : Fin 384) := Fin.ext r1.symm
  rw [e0']
  exact congrArg (GcnDense.entry (V c main_arg0) (V c main_v0) (V c main_v2) _) e1'

/-- An index of the array is in point t's block iff each coordinate is in the block's range on its axis. -/
theorem mem_blk0 (t : Fin cfg0.N) (i : S100000x384.Idx) :
    i ∈ ((cfg0.win 3).blk t).view.set ↔ ∀ a : Fin 2, win0_3.index t a * S4000x384.size a ≤ (i a).val ∧ (i a).val < win0_3.index t a * S4000x384.size a + S4000x384.size a := by
  show i ∈ ((View.whole main_v3).slice (win0_3.rect t)).set ↔ _
  rw [View.set_slice_whole, Rect.mem_set_unit]
  exact Iff.rfl

/-- Every entry of the array is in some point's block: row n is in block n / 4000. -/
theorem cover0 (i : S100000x384.Idx) : ∃ t : Fin cfg0.N, (cfg0.win 3).flush t = true ∧ i ∈ ((cfg0.win 3).blk t).view.set := by
  have hi0 : (i 0).val < 100000 := (i 0).isLt
  have hi1 : (i 1).val < 384 := (i 1).isLt
  have hN : cfg0.N = 25 := N_0
  refine ⟨⟨(i 0).val / 4000, by rw [hN]; omega⟩, flush0_3 _, ?_⟩
  obtain ⟨-, -, -, -, -, -, e6, e7⟩ := idx_facts0 ⟨(i 0).val / 4000, by rw [hN]; omega⟩
  rw [mem_blk0]
  intro a
  match a with
  | ⟨0, _⟩ =>
    show win0_3.index _ (0 : Fin 2) * 4000 ≤ (i 0).val ∧ (i 0).val < win0_3.index _ (0 : Fin 2) * 4000 + 4000
    rw [e6]; show (i 0).val / 4000 * 4000 ≤ (i 0).val ∧ (i 0).val < (i 0).val / 4000 * 4000 + 4000; omega
  | ⟨1, _⟩ =>
    show win0_3.index _ (1 : Fin 2) * 384 ≤ (i 1).val ∧ (i 1).val < win0_3.index _ (1 : Fin 2) * 384 + 384
    rw [e7]; omega

/-- The output array after the region: the dense layer of the whole table. -/
theorem final0 (c : Dev nD) :
    (dat0 V c).arrAt 3 cfg0.N = projAll (V c main_arg0) (V c main_v0) (V c main_v2) :=
  (dat0 V c).arrAt_eq_of_cover 3 _ (fun t _ => flushed0_eq V c t) cover0

end Cert.KernelIdeal.Frame

end
-- ==== Proof.KIVal1.lean ====
/-
  The contraction region's output array after the region, on the extended reals: one function of the arrays the
  region finds.

  Point t of the grid writes entries 2048·t … 2048·t + 2047; entry p of its block is the score of row 2048·t + p of
  the three gathered tables. The 123 blocks tile the 251904 rows, so the array ends holding, at n, the score of row n.
-/
import proofs.«181147_j65403761983981_2_alg».proof.Proof.KIBody1
import proofs.«181147_j65403761983981_2_alg».proof.Proof.KIPay
import Idealize.ShloMosaic.Lib.Pipeline.Value

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl
theorem hz1 : (![0] : Fin 1 → Nat) = fun _ => 0 := funext fun a => by fin_cases a; rfl

/-- The score of every row of the three gathered tables, as one array [251904]. -/
def scoreAll (A B C : S251904x384.Idx → EReal) : S251904.Idx → EReal :=
  fun i => Ideal.exp ((∑ d : Fin 128, Pay.laneRow A B C (⟨(i 0).val, (i 0).isLt⟩ : Fin 251904) d) * Ideal.ofBits .f32 0x3D2AAAAB#32)

/-- One entry of a point's block against one entry of the whole array: equal when the blocks' rows are the
    tables' rows. -/
theorem point1 (v0 v2 v4 : FVec Ideal S2048x384 .bf16) (A B C : S251904x384.Idx → EReal) (p : Fin 2048) (n : Fin 251904)
    (h0 : ∀ q : Fin 384, v0 (ix2 p q) = A (ix2 n q)) (h1 : ∀ q : Fin 384, v2 (ix2 p q) = B (ix2 n q))
    (h2 : ∀ q : Fin 384, v4 (ix2 p q) = C (ix2 n q)) :
    k1_pay1 (F := Ideal) v0 v2 v4 (ix1 p)
      = Ideal.exp ((∑ d : Fin 128, Pay.laneRow A B C n d) * Ideal.ofBits .f32 0x3D2AAAAB#32) := by
  refine (Pay.contract_apply v0 v2 v4 p).trans ?_
  refine congrArg (fun z => Ideal.exp (z * Ideal.ofBits .f32 0x3D2AAAAB#32)) (Finset.sum_congr rfl fun d _ => ?_)
  simp only [Pay.laneRow, h0, h1, h2]

/-- The printed index maps over the grid: every window sits at block row t. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = t.val :=
  (by decide +kernel : ∀ t : Fin grid1.N, _)

/-- Row p of a gathered table's block at point t is row 2048·t + p of the table. -/
theorem iblk1_0 (c : Dev nD) (t : Fin cfg1.N) (p : Fin 2048) (q : Fin 384) (n : Fin 251904) (hn : n.val = t.val * 2048 + p.val) :
    iblk1 V c 0 t (ix2 p q) = V c main_v19 (ix2 n q) := by
  obtain ⟨e0, e1, -, -, -, -, -⟩ := idx_facts1 t
  show V c main_v19 (((cfg1.win 0).blk t).view.emb (ix2 p q)) = V c main_v19 (ix2 n q)
  refine congrArg (V c main_v19) (funext fun a => Fin.ext ?_)
  match a with
  | ⟨0, _⟩ => show win1_0.index t (0 : Fin 2) * 2048 + 1 * p.val = n.val; omega
  | ⟨1, _⟩ => show win1_0.index t (1 : Fin 2) * 384 + 1 * q.val = q.val; omega
theorem iblk1_1 (c : Dev nD) (t : Fin cfg1.N) (p : Fin 2048) (q : Fin 384) (n : Fin 251904) (hn : n.val = t.val * 2048 + p.val) :
    iblk1 V c 1 t (ix2 p q) = V c main_v26 (ix2 n q) := by
  obtain ⟨-, -, e0, e1, -, -, -⟩ := idx_facts1 t
  show V c main_v26 (((cfg1.win 1).blk t).view.emb (ix2 p q)) = V c main_v26 (ix2 n q)
  refine congrArg (V c main_v26) (funext fun a => Fin.ext ?_)
  match a with
  | ⟨0, _⟩ => show win1_1.index t (0 : Fin 2) * 2048 + 1 * p.val = n.val; omega
  | ⟨1, _⟩ => show win1_1.index t (1 : Fin 2) * 384 + 1 * q.val = q.val; omega
theorem iblk1_2 (c : Dev nD) (t : Fin cfg1.N) (p : Fin 2048) (q : Fin 384) (n : Fin 251904) (hn : n.val = t.val * 2048 + p.val) :
    iblk1 V c 2 t (ix2 p q) = V c main_v33 (ix2 n q) := by
  obtain ⟨-, -, -, -, e0, e1, -⟩ := idx_facts1 t
  show V c main_v33 (((cfg1.win 2).blk t).view.emb (ix2 p q)) = V c main_v33 (ix2 n q)
  refine congrArg (V c main_v33) (funext fun a => Fin.ext ?_)
  match a with
  | ⟨0, _⟩ => show win1_2.index t (0 : Fin 2) * 2048 + 1 * p.val = n.val; omega
  | ⟨1, _⟩ => show win1_2.index t (1 : Fin 2) * 384 + 1 * q.val = q.val; omega

/-- What point t writes back is block t of the scores of all rows. -/
theorem flushed1_eq (c : Dev nD) (t : Fin cfg1.N) :
    (dat1 V c).flushed 3 t = ((cfg1.win 3).blk t).view.read (Elt Ideal) (scoreAll (V c main_v19) (V c main_v26) (V c main_v33)) := by
  show (cfg1.win 3).cut (grid1.coords t) ((dat1 V c).after 3 t) = _
  rw [after1_3]
  unfold out1_3
  rw [View.canon_unit_zero hz1]
  simp only [View.ld_unit_zero (S := S2048x384) hz2']
  obtain ⟨-, -, -, -, -, -, e6⟩ := idx_facts1 t
  have ht : t.val < 123 := lt_of_lt_of_eq t.isLt N_1
  funext j
  obtain ⟨p, rfl⟩ : ∃ p : Fin 2048, j = ix1 p := ⟨j 0, eq_ix1 j⟩
  have hn : t.val * 2048 + p.val < 251904 := by have := p.isLt; omega
  refine (point1 (iblk1 V c 0 t) (iblk1 V c 1 t) (iblk1 V c 2 t) (V c main_v19) (V c main_v26) (V c main_v33) p ⟨t.val * 2048 + p.val, hn⟩
    (fun q => iblk1_0 V c t p q _ rfl) (fun q => iblk1_1 V c t p q _ rfl) (fun q => iblk1_2 V c t p q _ rfl)).trans ?_
  show _ = scoreAll (V c main_v19) (V c main_v26) (V c main_v33) (((cfg1.win 3).blk t).view.emb (ix1 p))
  unfold scoreAll
  have r0 : ((((cfg1.win 3).blk t).view.emb (ix1 p)) 0).val = t.val * 2048 + p.val := by
    show win1_3.index t (0 : Fin 1) * 2048 + 1 * p.val = _; omega
  have e : (⟨t.val * 2048 + p.val, hn⟩ : Fin 251904)
      = ⟨((((cfg1.win 3).blk t).view.emb (ix1 p)) 0).val, ((((cfg1.win 3).blk t).view.emb (ix1 p)) 0).isLt⟩ := Fin.ext r0.symm
  rw [e]

/-- An index of the array is in point t's block iff its coordinate is in the block's range. -/
theorem mem_blk1 (t : Fin cfg1.N) (i : S251904.Idx) :
    i ∈ ((cfg1.win 3).blk t).view.set ↔ ∀ a : Fin 1, win1_3.index t a * S2048.size a ≤ (i a).val ∧ (i a).val < win1_3.index t a * S2048.size a + S2048.size a := by
  show i ∈ ((View.whole main_v34).slice (win1_3.rect t)).set ↔ _
  rw [View.set_slice_whole, Rect.mem_set_unit]
  exact Iff.rfl

/-- Every entry of the array is in some point's block: entry n is in block n / 2048. -/
theorem cover1 (i : S251904.Idx) : ∃ t : Fin cfg1.N, (cfg1.win 3).flush t = true ∧ i ∈ ((cfg1.win 3).blk t).view.set := by
  have hi0 : (i 0).val < 251904 := (i 0).isLt
  have hN : cfg1.N = 123 := N_1
  refine ⟨⟨(i 0).val / 2048, by rw [hN]; omega⟩, flush1_3 _, ?_⟩
  obtain ⟨-, -, -, -, -, -, e6⟩ := idx_facts1 ⟨(i 0).val / 2048, by rw [hN]; omega⟩
  rw [mem_blk1]
  intro a
  match a with
  | ⟨0, _⟩ =>
    show win1_3.index _ (0 : Fin 1) * 2048 ≤ (i 0).val ∧ (i 0).val < win1_3.index _ (0 : Fin 1) * 2048 + 2048
    rw [e6]; show (i 0).val / 2048 * 2048 ≤ (i 0).val ∧ (i 0).val < (i 0).val / 2048 * 2048 + 2048; omega

/-- The output array after the region: the scores of all rows of the gathered tables. -/
theorem final1 (c : Dev nD) :
    (dat1 V c).arrAt 3 cfg1.N = scoreAll (V c main_v19) (V c main_v26) (V c main_v33) :=
  (dat1 V c).arrAt_eq_of_cover 3 _ (fun t _ => flushed1_eq V c t) cover1

end Cert.KernelIdeal.Frame

end
-- ==== Proof.Spec.lean ====
/-
  The clique score, as one function of the argument arrays.

  A node's query, key and value rows are the dense layers  q = x·Qw + Qb,  k = x·Kw + Kb,  v = x·Vw + Vb  of its
  feature row (128 columns each). A clique has three corner nodes; its lane term at column c is the symmetrised
  product of one query, one key and one value entry taken at three different corners, summed over the six
  assignments. The clique's score is  exp ((Σ_c lane term) · s)  with s the scale 1/24 as the f32 word the programs
  carry. A corner's node is read from the index table: a negative entry is shifted up by the number of nodes, and
  the result is clamped into the table's rows.
-/
import Idealize.ShloMosaic.PureOps.Ideal
import Idealize.ShloMosaic.Lib.ValueIdx

noncomputable section

open scoped BigOperators

namespace Cert.Clique

open Idealize.ShloMosaic Idealize.ShloMosaic.ValueIdx

/-- A possibly negative node index shifted up by the number of nodes. -/
def wrap (v : BitVec 32) : BitVec 32 := Scalar.select (IntOp.cmpi .slt v 0#32) (IntOp.addi v 100000#32) v

/-- An index word read signed and clamped into the node table's rows. -/
def node (v : BitVec 32) : Fin 100000 := ⟨min v.toInt.toNat 99999, by omega⟩

/-- Corner `a` of clique `r`, as a node. -/
def corner (t : (⟨2, ![3, 250000]⟩ : Shape).Idx → BitVec 32) (a : Fin 3) (r : Fin 250000) : Fin 100000 :=
  node (wrap (t (ix2 a r)))

/-- The float arguments: the node features and the three dense layers' weights and biases. -/
structure Params where
  x : (⟨2, ![100000, 128]⟩ : Shape).Idx → EReal
  Qw : (⟨2, ![128, 128]⟩ : Shape).Idx → EReal
  Qb : (⟨1, ![128]⟩ : Shape).Idx → EReal
  Kw : (⟨2, ![128, 128]⟩ : Shape).Idx → EReal
  Kb : (⟨1, ![128]⟩ : Shape).Idx → EReal
  Vw : (⟨2, ![128, 128]⟩ : Shape).Idx → EReal
  Vb : (⟨1, ![128]⟩ : Shape).Idx → EReal

/-- Every entry of every float argument is a real number. -/
structure Params.Real (P : Params) : Prop where
  x : ∀ i, ∃ r : ℝ, P.x i = (r : EReal)
  Qw : ∀ i, ∃ r : ℝ, P.Qw i = (r : EReal)
  Qb : ∀ i, ∃ r : ℝ, P.Qb i = (r : EReal)
  Kw : ∀ i, ∃ r : ℝ, P.Kw i = (r : EReal)
  Kb : ∀ i, ∃ r : ℝ, P.Kb i = (r : EReal)
  Vw : ∀ i, ∃ r : ℝ, P.Vw i = (r : EReal)
  Vb : ∀ i, ∃ r : ℝ, P.Vb i = (r : EReal)

/-- One dense layer at node `n`, column `c`. -/
def dense (x : (⟨2, ![100000, 128]⟩ : Shape).Idx → EReal) (w : (⟨2, ![128, 128]⟩ : Shape).Idx → EReal)
    (b : (⟨1, ![128]⟩ : Shape).Idx → EReal) (n : Fin 100000) (c : Fin 128) : EReal :=
  (∑ k : Fin 128, x (ix2 n k) * w (ix2 k c)) + b (ix1 c)

def Params.q (P : Params) : Fin 100000 → Fin 128 → EReal := dense P.x P.Qw P.Qb
def Params.k (P : Params) : Fin 100000 → Fin 128 → EReal := dense P.x P.Kw P.Kb
def Params.v (P : Params) : Fin 100000 → Fin 128 → EReal := dense P.x P.Vw P.Vb

/-- The lane term of the corners `a`, `b`, `d` at column `c`: six products, summed left to right. -/
def lane (P : Params) (a b d : Fin 100000) (c : Fin 128) : EReal :=
  P.q a c * P.k b c * P.v d c + P.q b c * P.k d c * P.v a c + P.q d c * P.k a c * P.v b c
    + P.q b c * P.k a c * P.v d c + P.q d c * P.k b c * P.v a c + P.q a c * P.k d c * P.v b c

/-- Clique `r`'s score. -/
def score (P : Params) (t : (⟨2, ![3, 250000]⟩ : Shape).Idx → BitVec 32) (r : Fin 250000) : EReal :=
  Ideal.exp ((∑ c : Fin 128, lane P (corner t 0 r) (corner t 1 r) (corner t 2 r) c) * Ideal.ofBits .f32 0x3D2AAAAB#32)

end Cert.Clique

end
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.LibJoinRows.lean ====
/-
  Matrices stacked along their rows, and vectors joined end to end, read at an entry.

  When three matrices with the same number of columns are stacked one above the other, the entry (q, e) of the result
  is the entry of the piece whose row range holds q: for heights w1, w2, w3 the first piece at row q when q < w1, the
  second at q − w1 when w1 ≤ q < w1 + w2, the third at q − w1 − w2 beyond. Three vectors joined end to end are read
  the same way. The result's extent is kept as a number W of its own, so that a printed shape whose extent is written
  as one literal is met directly.
-/
import Idealize.ShloMosaic.Lib.ValueIdx
import Idealize.ShloMosaic.Lib.Pipeline.Value

noncomputable section

namespace Idealize.ShloMosaic.JoinRows

open Idealize.ShloMosaic Idealize.ShloMosaic.ValueIdx

variable {α : Type}

/-- Three matrices stacked, at a row of the first. -/
theorem triple_top {n w1 w2 w3 W : ℕ} (A : (⟨2, ![w1, n]⟩ : Shape).Idx → α) (B : (⟨2, ![w2, n]⟩ : Shape).Idx → α)
    (C : (⟨2, ![w3, n]⟩ : Shape).Idx → α)
    (h : Shape.Concatenates [(⟨2, ![w1, n]⟩ : Shape), (⟨2, ![w2, n]⟩ : Shape), (⟨2, ![w3, n]⟩ : Shape)] (⟨2, ![W, n]⟩ : Shape) 0)
    (a : Fin w1) (e : Fin n) (q : Fin W) (hq : q.val = a.val) :
    concatenate (⟨2, ![W, n]⟩ : Shape) 0
      [⟨(⟨2, ![w1, n]⟩ : Shape), A⟩, ⟨(⟨2, ![w2, n]⟩ : Shape), B⟩, ⟨(⟨2, ![w3, n]⟩ : Shape), C⟩] h (ix2 q e) = A (ix2 a e) :=
  concatenate_apply_piece 0 [⟨(⟨2, ![w1, n]⟩ : Shape), A⟩, ⟨(⟨2, ![w2, n]⟩ : Shape), B⟩, ⟨(⟨2, ![w3, n]⟩ : Shape), C⟩] h (ix2 q e) 0 (by simp) _ A rfl rfl 0 rfl (ix2 a e)
    (fun b hb => match b with | ⟨0, _⟩ => absurd rfl hb | ⟨1, _⟩ => rfl)
    (by show 0 + a.val = q.val; omega)

/-- Three matrices stacked, at a row of the second. -/
theorem triple_mid {n w1 w2 w3 W : ℕ} (A : (⟨2, ![w1, n]⟩ : Shape).Idx → α) (B : (⟨2, ![w2, n]⟩ : Shape).Idx → α)
    (C : (⟨2, ![w3, n]⟩ : Shape).Idx → α)
    (h : Shape.Concatenates [(⟨2, ![w1, n]⟩ : Shape), (⟨2, ![w2, n]⟩ : Shape), (⟨2, ![w3, n]⟩ : Shape)] (⟨2, ![W, n]⟩ : Shape) 0)
    (a : Fin w2) (e : Fin n) (q : Fin W) (hq : q.val = w1 + a.val) :
    concatenate (⟨2, ![W, n]⟩ : Shape) 0
      [⟨(⟨2, ![w1, n]⟩ : Shape), A⟩, ⟨(⟨2, ![w2, n]⟩ : Shape), B⟩, ⟨(⟨2, ![w3, n]⟩ : Shape), C⟩] h (ix2 q e) = B (ix2 a e) :=
  concatenate_apply_piece 0 [⟨(⟨2, ![w1, n]⟩ : Shape), A⟩, ⟨(⟨2, ![w2, n]⟩ : Shape), B⟩, ⟨(⟨2, ![w3, n]⟩ : Shape), C⟩] h (ix2 q e) 1 (by simp) _ B rfl rfl w1 (by simp) (ix2 a e)
    (fun b hb => match b with | ⟨0, _⟩ => absurd rfl hb | ⟨1, _⟩ => rfl)
    (by show w1 + a.val = q.val; omega)

/-- Three matrices stacked, at a row of the third. -/
theorem triple_bottom {n w1 w2 w3 W : ℕ} (A : (⟨2, ![w1, n]⟩ : Shape).Idx → α) (B : (⟨2, ![w2, n]⟩ : Shape).Idx → α)
    (C : (⟨2, ![w3, n]⟩ : Shape).Idx → α)
    (h : Shape.Concatenates [(⟨2, ![w1, n]⟩ : Shape), (⟨2, ![w2, n]⟩ : Shape), (⟨2, ![w3, n]⟩ : Shape)] (⟨2, ![W, n]⟩ : Shape) 0)
    (a : Fin w3) (e : Fin n) (q : Fin W) (hq : q.val = w1 + w2 + a.val) :
    concatenate (⟨2, ![W, n]⟩ : Shape) 0
      [⟨(⟨2, ![w1, n]⟩ : Shape), A⟩, ⟨(⟨2, ![w2, n]⟩ : Shape), B⟩, ⟨(⟨2, ![w3, n]⟩ : Shape), C⟩] h (ix2 q e) = C (ix2 a e) :=
  concatenate_apply_piece 0 [⟨(⟨2, ![w1, n]⟩ : Shape), A⟩, ⟨(⟨2, ![w2, n]⟩ : Shape), B⟩, ⟨(⟨2, ![w3, n]⟩ : Shape), C⟩] h (ix2 q e) 2 (by simp) _ C rfl rfl (w1 + w2) (by simp) (ix2 a e)
    (fun b hb => match b with | ⟨0, _⟩ => absurd rfl hb | ⟨1, _⟩ => rfl)
    (by show w1 + w2 + a.val = q.val; omega)

/-- Three vectors joined, at a position of the first. -/
theorem vec_first {w1 w2 w3 W : ℕ} (A : (⟨1, ![w1]⟩ : Shape).Idx → α) (B : (⟨1, ![w2]⟩ : Shape).Idx → α)
    (C : (⟨1, ![w3]⟩ : Shape).Idx → α)
    (h : Shape.Concatenates [(⟨1, ![w1]⟩ : Shape), (⟨1, ![w2]⟩ : Shape), (⟨1, ![w3]⟩ : Shape)] (⟨1, ![W]⟩ : Shape) 0)
    (a : Fin w1) (q : Fin W) (hq : q.val = a.val) :
    concatenate (⟨1, ![W]⟩ : Shape) 0
      [⟨(⟨1, ![w1]⟩ : Shape), A⟩, ⟨(⟨1, ![w2]⟩ : Shape), B⟩, ⟨(⟨1, ![w3]⟩ : Shape), C⟩] h (ix1 q) = A (ix1 a) :=
  concatenate_apply_piece 0 [⟨(⟨1, ![w1]⟩ : Shape), A⟩, ⟨(⟨1, ![w2]⟩ : Shape), B⟩, ⟨(⟨1, ![w3]⟩ : Shape), C⟩] h (ix1 q) 0 (by simp) _ A rfl rfl 0 rfl (ix1 a)
    (fun b hb => match b with | ⟨0, _⟩ => absurd rfl hb)
    (by show 0 + a.val = q.val; omega)

/-- Three vectors joined, at a position of the second. -/
theorem vec_second {w1 w2 w3 W : ℕ} (A : (⟨1, ![w1]⟩ : Shape).Idx → α) (B : (⟨1, ![w2]⟩ : Shape).Idx → α)
    (C : (⟨1, ![w3]⟩ : Shape).Idx → α)
    (h : Shape.Concatenates [(⟨1, ![w1]⟩ : Shape), (⟨1, ![w2]⟩ : Shape), (⟨1, ![w3]⟩ : Shape)] (⟨1, ![W]⟩ : Shape) 0)
    (a : Fin w2) (q : Fin W) (hq : q.val = w1 + a.val) :
    concatenate (⟨1, ![W]⟩ : Shape) 0
      [⟨(⟨1, ![w1]⟩ : Shape), A⟩, ⟨(⟨1, ![w2]⟩ : Shape), B⟩, ⟨(⟨1, ![w3]⟩ : Shape), C⟩] h (ix1 q) = B (ix1 a) :=
  concatenate_apply_piece 0 [⟨(⟨1, ![w1]⟩ : Shape), A⟩, ⟨(⟨1, ![w2]⟩ : Shape), B⟩, ⟨(⟨1, ![w3]⟩ : Shape), C⟩] h (ix1 q) 1 (by simp) _ B rfl rfl w1 (by simp) (ix1 a)
    (fun b hb => match b with | ⟨0, _⟩ => absurd rfl hb)
    (by show w1 + a.val = q.val; omega)

/-- Three vectors joined, at a position of the third. -/
theorem vec_third {w1 w2 w3 W : ℕ} (A : (⟨1, ![w1]⟩ : Shape).Idx → α) (B : (⟨1, ![w2]⟩ : Shape).Idx → α)
    (C : (⟨1, ![w3]⟩ : Shape).Idx → α)
    (h : Shape.Concatenates [(⟨1, ![w1]⟩ : Shape), (⟨1, ![w2]⟩ : Shape), (⟨1, ![w3]⟩ : Shape)] (⟨1, ![W]⟩ : Shape) 0)
    (a : Fin w3) (q : Fin W) (hq : q.val = w1 + w2 + a.val) :
    concatenate (⟨1, ![W]⟩ : Shape) 0
      [⟨(⟨1, ![w1]⟩ : Shape), A⟩, ⟨(⟨1, ![w2]⟩ : Shape), B⟩, ⟨(⟨1, ![w3]⟩ : Shape), C⟩] h (ix1 q) = C (ix1 a) :=
  concatenate_apply_piece 0 [⟨(⟨1, ![w1]⟩ : Shape), A⟩, ⟨(⟨1, ![w2]⟩ : Shape), B⟩, ⟨(⟨1, ![w3]⟩ : Shape), C⟩] h (ix1 q) 2 (by simp) _ C rfl rfl (w1 + w2) (by simp) (ix1 a)
    (fun b hb => match b with | ⟨0, _⟩ => absurd rfl hb)
    (by show w1 + w2 + a.val = q.val; omega)

end Idealize.ShloMosaic.JoinRows

end
-- ==== Proof.KIBridge.lean ====
/-
  The kernel's clique scores are the specification's, entry by entry, on the extended reals.

  Reading the program's own arrays from the inside out: the joined weights at column d, 128 + d, 256 + d are the
  query, key and value weights at column d, and likewise the joined biases, so the projection's row n holds the
  query, key and value rows of node n side by side; a gathered table's row r (r < 250000) is the projection's row at
  the clique's corner (the padding does not touch the first 250000 indices; the shift of negative entries and the
  clamp are the specification's); so row r's lane term is the clique's, and the scores agree.
-/
import proofs.«181147_j65403761983981_2_alg».proof.Proof.KIHost
import proofs.«181147_j65403761983981_2_alg».proof.Proof.KIVal0
import proofs.«181147_j65403761983981_2_alg».proof.Proof.KIVal1
import proofs.«181147_j65403761983981_2_alg».proof.Proof.Spec
import proofs.«181147_j65403761983981_2_alg».proof.Proof.LibRowScatter
import proofs.«181147_j65403761983981_2_alg».proof.Proof.LibJoinCols
import proofs.«181147_j65403761983981_2_alg».proof.Proof.LibJoinRows
import Idealize.ShloMosaic.Lib.ValueLayout
import Idealize.ShloMosaic.Lib.KernelVsHost

noncomputable section

open scoped BigOperators

namespace Cert.KernelIdeal.Bridge

open Cert.KernelIdeal Cert.KernelIdeal.Gen Cert.KernelIdeal.HostReads Cert.KernelIdeal.Frame
open Idealize.ShloMosaic Idealize.ShloMosaic.ValueIdx

/-! ## The index table's rows, padded and normalised -/

theorem row0_apply (t : IVec S3x250000 32) (r : Fin 250000) : row0 t (ix1 r) = t (ix2 (0 : Fin 3) r) := by
  unfold row0
  refine (shapeCast_1a_a_apply _ shapeCasts_S1x250000_S250000 r).trans ?_
  exact slice2_axis0_apply 0 t slices_S3x250000_S1x250000_0_0 (0 : Fin 1) r (0 : Fin 3) rfl
theorem row1_apply (t : IVec S3x250000 32) (r : Fin 250000) : row1 t (ix1 r) = t (ix2 (1 : Fin 3) r) := by
  unfold row1
  refine (shapeCast_1a_a_apply _ shapeCasts_S1x250000_S250000 r).trans ?_
  exact slice2_axis0_apply 1 t slices_S3x250000_S1x250000_1_0 (0 : Fin 1) r (1 : Fin 3) rfl
theorem row2_apply (t : IVec S3x250000 32) (r : Fin 250000) : row2 t (ix1 r) = t (ix2 (2 : Fin 3) r) := by
  unfold row2
  refine (shapeCast_1a_a_apply _ shapeCasts_S1x250000_S250000 r).trans ?_
  exact slice2_axis0_apply 2 t slices_S3x250000_S1x250000_2_0 (0 : Fin 1) r (2 : Fin 3) rfl

/-- The padding leaves the first 250000 indices alone. -/
theorem padded_apply (r : IVec S250000 32) (n : Fin 251904) (k : Fin 250000) (h : n.val = k.val) :
    padded r (ix1 n) = r (ix1 k) := by
  unfold padded
  exact pad_apply_of_inside ![0] ![1904] ![0] r _ pads_S250000_S251904_019040 h_S_ (ix1 n) (ix1 k)
    (fun a => by match a with | ⟨0, _⟩ => show n.val = 0 + k.val * (0 + 1); omega)

/-- The index column at row n is the padded index, shifted up when negative. -/
theorem idxCol_apply (r : IVec S250000 32) (n : Fin 251904) :
    idxCol r (ix2 n (0 : Fin 1)) = Clique.wrap (padded r (ix1 n)) := by
  unfold idxCol
  refine (broadcastInDim_apply ![0] bcast_S251904_S251904x1_0 _ (ix2 n (0 : Fin 1)) (ix1 n)
    (fun a => by match a with | ⟨0, _⟩ => show n.val = if (251904 : ℕ) = 1 then 0 else n.val; rw [if_neg (by decide)])).trans ?_
  rfl

/-- A gathered table's row n is the table's row at the normalised, clamped index. -/
theorem gathered_apply (T : FVec Ideal S100000x384 .bf16) (r : IVec S250000 32) (n : Fin 251904) (q : Fin 384) :
    gathered T r (ix2 n q) = T (ix2 (Clique.node (Clique.wrap (padded r (ix1 n)))) q) := by
  unfold gathered
  refine (RowScatter.gather_rows_apply (N := 100000) (E := 251904) (C := 384) (by decide)
    gather_S100000x384_S251904x1_S251904x384_1_0_n_n_0_1_1384_wf T (idxCol r) n q).trans ?_
  refine congrArg (fun v => T (ix2 v q)) (Fin.ext ?_)
  show min (idxCol r (ix2 n (0 : Fin 1))).toInt.toNat (100000 - 1) = min (Clique.wrap (padded r (ix1 n))).toInt.toNat 99999
  rw [idxCol_apply]

/-! ## The joined weights and biases -/

variable (X : FVec Ideal S100000x128 .f32) (Qw Kw Vw : FVec Ideal S128x128 .f32) (Qb Kb Vb : FVec Ideal S128 .f32)

theorem wcat_q (k d : Fin 128) : wcat Qw Kw Vw (ix2 k (Pay.colAt 0 (by omega) d)) = Qw (ix2 k d) :=
  JoinCols.triple_left Qw Kw Vw concatenates_S128x128_S128x128_S128x128_S128x384_d1 k d _ (Nat.zero_add _)
theorem wcat_k (k d : Fin 128) : wcat Qw Kw Vw (ix2 k (Pay.colAt 128 (by omega) d)) = Kw (ix2 k d) :=
  JoinCols.triple_mid Qw Kw Vw concatenates_S128x128_S128x128_S128x128_S128x384_d1 k d _ rfl
theorem wcat_v (k d : Fin 128) : wcat Qw Kw Vw (ix2 k (Pay.colAt 256 (by omega) d)) = Vw (ix2 k d) :=
  JoinCols.triple_right Qw Kw Vw concatenates_S128x128_S128x128_S128x128_S128x384_d1 k d _ rfl

theorem brow_q (d : Fin 128) : brow Qb Kb Vb (ix2 (0 : Fin 1) (Pay.colAt 0 (by omega) d)) = Qb (ix1 d) := by
  unfold brow
  exact (shapeCast_a_1a_apply _ shapeCasts_S384_S1x384 0 _).trans
    (JoinRows.vec_first Qb Kb Vb concatenates_S128_S128_S128_S384_d0 d _ (Nat.zero_add _))
theorem brow_k (d : Fin 128) : brow Qb Kb Vb (ix2 (0 : Fin 1) (Pay.colAt 128 (by omega) d)) = Kb (ix1 d) := by
  unfold brow
  exact (shapeCast_a_1a_apply _ shapeCasts_S384_S1x384 0 _).trans
    (JoinRows.vec_second Qb Kb Vb concatenates_S128_S128_S128_S384_d0 d _ rfl)
theorem brow_v (d : Fin 128) : brow Qb Kb Vb (ix2 (0 : Fin 1) (Pay.colAt 256 (by omega) d)) = Vb (ix1 d) := by
  unfold brow
  exact (shapeCast_a_1a_apply _ shapeCasts_S384_S1x384 0 _).trans
    (JoinRows.vec_third Qb Kb Vb concatenates_S128_S128_S128_S384_d0 d _ rfl)

/-- The specification's parameters from the argument arrays. -/
abbrev params : Clique.Params := ⟨X, Qw, Qb, Kw, Kb, Vw, Vb⟩

/-- The projection of the whole table, from the arguments. -/
abbrev table : S100000x384.Idx → EReal := projAll X (wcat Qw Kw Vw) (brow Qb Kb Vb)

/-- Row n of the projection holds node n's query, key and value rows side by side. -/
theorem table_q (n : Fin 100000) (d : Fin 128) :
    table X Qw Kw Vw Qb Kb Vb (ix2 n (Pay.colAt 0 (by omega) d)) = (params X Qw Kw Vw Qb Kb Vb).q n d := by
  show GcnDense.entry X (wcat Qw Kw Vw) (brow Qb Kb Vb) n (Pay.colAt 0 (by omega) d) = Clique.dense X Qw Qb n d
  unfold GcnDense.entry Clique.dense
  rw [brow_q]
  exact congrArg (· + Qb (ix1 d)) (Finset.sum_congr rfl fun k _ => by rw [wcat_q])
theorem table_k (n : Fin 100000) (d : Fin 128) :
    table X Qw Kw Vw Qb Kb Vb (ix2 n (Pay.colAt 128 (by omega) d)) = (params X Qw Kw Vw Qb Kb Vb).k n d := by
  show GcnDense.entry X (wcat Qw Kw Vw) (brow Qb Kb Vb) n (Pay.colAt 128 (by omega) d) = Clique.dense X Kw Kb n d
  unfold GcnDense.entry Clique.dense
  rw [brow_k]
  exact congrArg (· + Kb (ix1 d)) (Finset.sum_congr rfl fun k _ => by rw [wcat_k])
theorem table_v (n : Fin 100000) (d : Fin 128) :
    table X Qw Kw Vw Qb Kb Vb (ix2 n (Pay.colAt 256 (by omega) d)) = (params X Qw Kw Vw Qb Kb Vb).v n d := by
  show GcnDense.entry X (wcat Qw Kw Vw) (brow Qb Kb Vb) n (Pay.colAt 256 (by omega) d) = Clique.dense X Vw Vb n d
  unfold GcnDense.entry Clique.dense
  rw [brow_v]
  exact congrArg (· + Vb (ix1 d)) (Finset.sum_congr rfl fun k _ => by rw [wcat_v])

/-! ## The gathered tables' rows and the scores -/

variable (t : IVec S3x250000 32)

/-- Row n = r of corner a's gathered table is the projection's row at the clique's corner a. -/
theorem corner_row (T : FVec Ideal S100000x384 .bf16) (rw_ : IVec S250000 32) (a : Fin 3)
    (hrow : ∀ r : Fin 250000, rw_ (ix1 r) = t (ix2 a r)) (n : Fin 251904) (r : Fin 250000) (h : n.val = r.val) (q : Fin 384) :
    gathered T rw_ (ix2 n q) = T (ix2 (Clique.corner t a r) q) := by
  rw [gathered_apply, padded_apply rw_ n r h, hrow r]
  rfl

/-- Clique r's lane term, read off row r of the three gathered tables. -/
theorem lane_eq (n : Fin 251904) (r : Fin 250000) (h : n.val = r.val) (d : Fin 128) :
    Pay.laneRow (gathered (F := Ideal) (table X Qw Kw Vw Qb Kb Vb) (row0 t)) (gathered (F := Ideal) (table X Qw Kw Vw Qb Kb Vb) (row1 t))
        (gathered (F := Ideal) (table X Qw Kw Vw Qb Kb Vb) (row2 t)) n d
      = Clique.lane (params X Qw Kw Vw Qb Kb Vb) (Clique.corner t 0 r) (Clique.corner t 1 r) (Clique.corner t 2 r) d := by
  unfold Pay.laneRow Clique.lane
  simp only [corner_row t (table X Qw Kw Vw Qb Kb Vb) (row0 t) 0 (row0_apply t) n r h,
    corner_row t (table X Qw Kw Vw Qb Kb Vb) (row1 t) 1 (row1_apply t) n r h,
    corner_row t (table X Qw Kw Vw Qb Kb Vb) (row2 t) 2 (row2_apply t) n r h,
    table_q, table_k, table_v]

/-- The kernel's scores, cut back to the cliques, are the specification's. -/
theorem kernel_score (i : S250000.Idx) :
    cut (F := Ideal) (scoreAll (gathered (F := Ideal) (table X Qw Kw Vw Qb Kb Vb) (row0 t)) (gathered (F := Ideal) (table X Qw Kw Vw Qb Kb Vb) (row1 t))
        (gathered (F := Ideal) (table X Qw Kw Vw Qb Kb Vb) (row2 t))) i
      = Clique.score (params X Qw Kw Vw Qb Kb Vb) t (i 0) := by
  obtain ⟨r, rfl⟩ : ∃ r : Fin 250000, i = ix1 r := ⟨i 0, eq_ix1 i⟩
  have hn : r.val < 251904 := by have := r.isLt; omega
  unfold cut
  refine (extractStridedSlice_apply ![0] _ slices_S251904_S250000_0 (ix1 r) (ix1 (⟨r.val, hn⟩ : Fin 251904))
    (fun a => by match a with | ⟨0, _⟩ => show r.val = 0 + r.val; omega)).trans ?_
  show Ideal.exp ((∑ d : Fin 128, Pay.laneRow _ _ _ (⟨r.val, hn⟩ : Fin 251904) d) * Ideal.ofBits .f32 0x3D2AAAAB#32)
    = Ideal.exp ((∑ c : Fin 128, Clique.lane (params X Qw Kw Vw Qb Kb Vb) (Clique.corner t 0 r) (Clique.corner t 1 r) (Clique.corner t 2 r) c)
        * Ideal.ofBits .f32 0x3D2AAAAB#32)
  exact congrArg (fun z => Ideal.exp (z * Ideal.ofBits .f32 0x3D2AAAAB#32))
    (Finset.sum_congr rfl fun d _ => lane_eq X Qw Kw Vw Qb Kb Vb t ⟨r.val, hn⟩ r rfl d)

end Cert.KernelIdeal.Bridge

end
-- ==== Proof.KIResults.lean ====
/-
  The idealized kernel's run with its three results named, on the extended reals.

  The last valuation of the run, read at the result buffers: the clique scores are the contraction region's output
  cut back to the cliques, which — through the gathered tables and the projection region's output — are the
  specification's scores of the argument arrays; the edge sums and the node sums are the host's two accumulations of them.
-/
import proofs.«181147_j65403761983981_2_alg».proof.Proof.KIRun
import proofs.«181147_j65403761983981_2_alg».proof.Proof.KIHost
import proofs.«181147_j65403761983981_2_alg».proof.Proof.KIVal0
import proofs.«181147_j65403761983981_2_alg».proof.Proof.KIVal1
import proofs.«181147_j65403761983981_2_alg».proof.Proof.KIBridge

noncomputable section

namespace Cert.KernelIdeal.Results

open Cert.KernelIdeal Cert.KernelIdeal.Gen Cert.KernelIdeal.HostReads Cert.KernelIdeal.Frame
open Idealize.ShloMosaic Idealize.ShloMosaic.TcCoe Idealize.SL.Sem

variable (m : (ℓ : Loc nD τ sig) → Buf (Elt Ideal) ℓ) (ρ : Dev nD → PrngReg)

/-- The specification's parameters, from the launch memory. -/
abbrev prm (c : Dev nD) : Clique.Params :=
  ⟨m ((c.tc : Thread nD τ).loc main_arg0), m ((c.tc : Thread nD τ).loc main_arg5), m ((c.tc : Thread nD τ).loc main_arg6),
    m ((c.tc : Thread nD τ).loc main_arg7), m ((c.tc : Thread nD τ).loc main_arg8), m ((c.tc : Thread nD τ).loc main_arg9),
    m ((c.tc : Thread nD τ).loc main_arg10)⟩

/-- The clique scores of the launch memory, as an array. -/
def scores (c : Dev nD) : FVec Ideal S250000 .f32 :=
  fun i => Clique.score (prm m c) (m ((c.tc : Thread nD τ).loc main_arg3)) (i 0)

/-- The projection region's output, from the launch memory. -/
theorem arr0_eq (c : Dev nD) :
    (dat0 (atTc (V1 m)) c).arrAt 3 cfg0.N
      = Bridge.table (m ((c.tc : Thread nD τ).loc main_arg0)) (m ((c.tc : Thread nD τ).loc main_arg5)) (m ((c.tc : Thread nD τ).loc main_arg7))
          (m ((c.tc : Thread nD τ).loc main_arg9)) (m ((c.tc : Thread nD τ).loc main_arg6)) (m ((c.tc : Thread nD τ).loc main_arg8))
          (m ((c.tc : Thread nD τ).loc main_arg10)) := by
  rw [final0]
  show projAll (V1 m c main_arg0) (V1 m c main_v0) (V1 m c main_v2) = _
  rw [V1_arg0, V1_v0, V1_v2]

/-- The contraction region's output, cut back to the cliques, is the scores. -/
theorem cut_eq (c : Dev nD) : cut (F := Ideal) (outsB m 10 main_v34 c) = scores m c := by
  rw [outsB_v34, final1]
  show cut (F := Ideal) (scoreAll (V9 m (outsA m) c main_v19) (V9 m (outsA m) c main_v26) (V9 m (outsA m) c main_v33)) = _
  rw [V9_v19, V9_v26, V9_v33, outsA_v3, arr0_eq]
  funext i
  exact Bridge.kernel_score _ _ _ _ _ _ _ _ i

/-- Every weakly fair execution of the idealized kernel terminates with the three results at the scores' node sums,
    edge sums and the scores themselves, the arguments unchanged. -/
theorem run : θ_run defs (onTc (τ := τ) (main (F := Ideal))) ⟨m, fun _ => 0, ρ⟩ (fun r => ∀ c : Dev nD,
      r.2.mem ((c.tc : Thread nD τ).loc main_v49)
        = nodeSums (edgeSums (scores m c) (m ((c.tc : Thread nD τ).loc main_arg4))) (m ((c.tc : Thread nD τ).loc main_arg2))
      ∧ r.2.mem ((c.tc : Thread nD τ).loc main_v42) = edgeSums (scores m c) (m ((c.tc : Thread nD τ).loc main_arg4))
      ∧ r.2.mem ((c.tc : Thread nD τ).loc main_v35) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v49 (by decide))).trans ((V11_v49 m (outsB m) c).trans (by rw [cut_eq])),
     (h c _ (mem_uc main_v42 (by decide))).trans ((V11_v42 m (outsB m) c).trans (by rw [cut_eq])),
     (h c _ (mem_uc main_v35 (by decide))).trans ((V11_v35 m (outsB m) c).trans (cut_eq m c)),
     (h c _ (mem_uc main_arg0 (by decide))).trans (V11_main_arg0 m (outsB m) c),
     (h c _ (mem_uc main_arg1 (by decide))).trans (V11_main_arg1 m (outsB m) c),
     (h c _ (mem_uc main_arg2 (by decide))).trans (V11_main_arg2 m (outsB m) c),
     (h c _ (mem_uc main_arg3 (by decide))).trans (V11_main_arg3 m (outsB m) c),
     (h c _ (mem_uc main_arg4 (by decide))).trans (V11_main_arg4 m (outsB m) c),
     (h c _ (mem_uc main_arg5 (by decide))).trans (V11_main_arg5 m (outsB m) c),
     (h c _ (mem_uc main_arg6 (by decide))).trans (V11_main_arg6 m (outsB m) c),
     (h c _ (mem_uc main_arg7 (by decide))).trans (V11_main_arg7 m (outsB m) c),
     (h c _ (mem_uc main_arg8 (by decide))).trans (V11_main_arg8 m (outsB m) c),
     (h c _ (mem_uc main_arg9 (by decide))).trans (V11_main_arg9 m (outsB m) c),
     (h c _ (mem_uc main_arg10 (by decide))).trans (V11_main_arg10 m (outsB m) c)⟩) (run_all m ρ)

end Cert.KernelIdeal.Results

end
-- ==== Proof.RefTail.lean ====
/-
  The two segment sums that follow the clique scores, as functions of the scores and of the index tables.

  The edge array is the scatter-add, into zeros, of every clique's score repeated three times, at the second row of
  the clique-to-edge table; the node array is the scatter-add, into zeros, of every edge value repeated twice, at the
  second row of the edge-to-node table. The reference's second and third results are these two functions applied to
  its first and second.
-/
import proofs.«181147_j65403761983981_2_alg».proof.Proof.Gen.ReferenceIdeal.Run
import proofs.«181147_j65403761983981_2_alg».proof.Proof.Gen.ReferenceIdeal.Read

noncomputable section

namespace Cert.RefSide

open Cert.ReferenceIdeal Cert.ReferenceIdeal.Gen Idealize.ShloMosaic Idealize.ShloMosaic.TcCoe Idealize.SL.Sem Idealize.ShloMosaic.StableHlo

/-- Clique scores to edge values: each score repeated three times, added into zeros at the table's second row. -/
def tail1 (d2 : FVec Ideal S250000 .f32) (a4 : IVec S2x750000 32) : FVec Ideal S1600000 .f32 :=
  Host.scatterAdd (F := Ideal) scatter_S1600000_S750000x1_S750000_n_0_0_1 (broadcastInDim S1600000 ![] bcast_S_S1600000 (constant (F := Ideal) S_ .f32 0x00000000#32)) (broadcastInDim S750000x1 ![0] bcast_S750000_S750000x1_0 (shapeCast _ (extractStridedSlice S1x750000 ![1, 0] a4 slices_S2x750000_S1x750000_1_0) shapeCasts_S1x750000_S750000)) (shapeCast _ (broadcastInDim S250000x3 ![0] bcast_S250000_S250000x3_0 d2) shapeCasts_S250000x3_S750000)

/-- Edge values to node values: each edge value repeated twice, added into zeros at the table's second row. -/
def tail0 (d1 : FVec Ideal S1600000 .f32) (a2 : IVec S2x3200000 32) : FVec Ideal S100000 .f32 :=
  Host.scatterAdd (F := Ideal) scatter_S100000_S3200000x1_S3200000_n_0_0_1 (broadcastInDim S100000 ![] bcast_S_S100000 (constant (F := Ideal) S_ .f32 0x00000000#32)) (broadcastInDim S3200000x1 ![0] bcast_S3200000_S3200000x1_0 (shapeCast _ (extractStridedSlice S1x3200000 ![1, 0] a2 slices_S2x3200000_S1x3200000_1_0) shapeCasts_S1x3200000_S3200000)) (shapeCast _ (broadcastInDim S1600000x2 ![0] bcast_S1600000_S1600000x2_0 d1) shapeCasts_S1600000x2_S3200000)

set_option maxRecDepth 8192 in
/-- The reference's edge result is `tail1` of its clique result. -/
theorem out1_eq (m : (ℓ : Loc nD τ sig) → Buf (Elt Ideal) ℓ) (c : Dev nD) :
    Cert.ReferenceIdeal.Value.res_out1 (F := Ideal) m c
      = tail1 (Cert.ReferenceIdeal.Value.res_out2 (F := Ideal) m c) (m ((c.tc : Thread nD τ).loc main_arg4)) := by
  unfold Cert.ReferenceIdeal.Value.res_out1 Cert.ReferenceIdeal.Value.res_out2 Cert.ReferenceIdeal.Value.res_main_v114 Cert.ReferenceIdeal.Value.res_main_v107 tail1
  rfl

set_option maxRecDepth 8192 in
/-- The reference's node result is `tail0` of its edge result. -/
theorem out0_eq (m : (ℓ : Loc nD τ sig) → Buf (Elt Ideal) ℓ) (c : Dev nD) :
    Cert.ReferenceIdeal.Value.res_out0 (F := Ideal) m c
      = tail0 (Cert.ReferenceIdeal.Value.res_out1 (F := Ideal) m c) (m ((c.tc : Thread nD τ).loc main_arg2)) := by
  unfold Cert.ReferenceIdeal.Value.res_out0 Cert.ReferenceIdeal.Value.res_out1 Cert.ReferenceIdeal.Value.res_main_v121 Cert.ReferenceIdeal.Value.res_main_v114 tail0
  rfl

end Cert.RefSide

end
-- ==== Proof.LibGatherRows3.lean ====
/-
  Rows of a three-axis table picked by an index column, read at an index.

  A table `[N, H, D]` is gathered at one row index per item (`[E, 1]`): entry `(e, h, d)` of the result is the
  table's entry `(r, h, d)`, where `r` is item `e`'s index read as a signed integer and clamped into `[0, N - 1]`.
  Stated for any extents (`GatherRows3.rowGather3`, `GatherRows3.gather_rows3_apply`). It imports only the library.
-/
import Idealize.ShloMosaic.Lib.ValueIdx

noncomputable section

namespace Idealize.ShloMosaic.GatherRows3

open Idealize.ShloMosaic Idealize.ShloMosaic.ValueIdx

/-- The dimension numbers of `x[idx]` for a table `x : [N, H, D]` and one row index per item, `idx : [E, 1]`:
    the row axis is collapsed and indexed, the other two axes are the slice. -/
abbrev rowGather3 (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- Entry `(e, h, d)` of the gathered rows: the table's row at item `e`'s index, read signed and clamped into
    `[0, N - 1]`, at `(h, d)`. -/
theorem gather_rows3_apply {α : Type} {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (rowGather3 N E H D wf) x idx (ix3 e h d)
      = x (ix3 ⟨min (idx (ix2 e (0 : Fin 1))).toInt.toNat (N - 1), by omega⟩ h d) := by
  have h10 : (1 : Fin 3) ≠ 0 := by decide
  have h20 : (2 : Fin 3) ≠ 0 := by decide
  -- the indexed axis: the clamped start, no offset
  have e0 : (rowGather3 N E H D wf).start (ix3 e h d) idx 0 + (rowGather3 N E H D wf).batchCoord (ix3 e h d) 0
      + (rowGather3 N E H D wf).offCoord (ix3 e h d) 0 = min (idx (ix2 e (0 : Fin 1))).toInt.toNat (N - 1) := by
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 3) ∈ (rowGather3 N E H D wf).startIndexMap from List.mem_singleton.mpr rfl)]
    have hsi : (rowGather3 N E H D wf).siIdx (ix3 e h d) ⟨List.idxOf (0 : Fin 3) (rowGather3 N E H D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the two slice axes: no start, the result's own coordinate
  have e1 : (rowGather3 N E H D wf).start (ix3 e h d) idx 1 + (rowGather3 N E H D wf).batchCoord (ix3 e h d) 1
      + (rowGather3 N E H D wf).offCoord (ix3 e h d) 1 = h.val := by
    rw [GatherDims.batchCoord_eq_zero _ _ _ List.not_mem_nil]
    unfold GatherDims.start
    rw [dif_neg (show ¬ (1 : Fin 3) ∈ (rowGather3 N E H D wf).startIndexMap from
      fun hh => absurd (List.mem_singleton.mp hh) h10)]
    simp only [Nat.zero_add, Nat.add_zero]
    unfold GatherDims.offCoord
    rw [dif_pos (show (1 : Fin 3) ∈ (rowGather3 N E H D wf).sKept from
      (GatherDims.mem_sKept _ _).mpr ⟨fun hh => absurd (List.mem_singleton.mp hh) h10, List.not_mem_nil⟩)]
    rfl
  have e2 : (rowGather3 N E H D wf).start (ix3 e h d) idx 2 + (rowGather3 N E H D wf).batchCoord (ix3 e h d) 2
      + (rowGather3 N E H D wf).offCoord (ix3 e h d) 2 = d.val := by
    rw [GatherDims.batchCoord_eq_zero _ _ _ List.not_mem_nil]
    unfold GatherDims.start
    rw [dif_neg (show ¬ (2 : Fin 3) ∈ (rowGather3 N E H D wf).startIndexMap from
      fun hh => absurd (List.mem_singleton.mp hh) h20)]
    simp only [Nat.zero_add, Nat.add_zero]
    unfold GatherDims.offCoord
    rw [dif_pos (show (2 : Fin 3) ∈ (rowGather3 N E H D wf).sKept from
      (GatherDims.mem_sKept _ _).mpr ⟨fun hh => absurd (List.mem_singleton.mp hh) h20, List.not_mem_nil⟩)]
    rfl
  unfold Host.gather
  refine congrArg x (funext fun a => Fin.ext ?_)
  match a with
  | ⟨0, _⟩ => exact e0
  | ⟨1, _⟩ => exact e1
  | ⟨2, _⟩ => exact e2

end Idealize.ShloMosaic.GatherRows3

end
-- ==== Proof.RefIndex.lean ====
/-
  The index column that reaches each gather, read at a clique.

  Row `a` of the corner table is sliced out and flattened; a negative entry is shifted up by the number of nodes
  (`select (v < 0) (v + 100000) v`); the result is given a trailing unit axis. At clique `r` the column therefore
  holds the shifted entry `(a, r)` of the table. The program recomputes the column once per gather, nine times
  in all, three per row of the table.
-/
import proofs.«181147_j65403761983981_2_alg».proof.Proof.Gen.ReferenceIdeal.Read
import proofs.«181147_j65403761983981_2_alg».proof.Proof.Spec

noncomputable section

namespace Cert.RefSide

open Cert.ReferenceIdeal Cert.ReferenceIdeal.Gen Cert.ReferenceIdeal.Read Idealize.ShloMosaic Idealize.ShloMosaic.TcCoe
open Idealize.ShloMosaic.ValueIdx

variable {F : FTy → Type} [FloatOps F]

/-- The flattened row `0` of the corner table at a position whose coordinate is `r`. -/
theorem row0_at (x3 : (⟨S3x250000, .i32⟩ : BufTy).Contents (Elt F)) (j : S250000.Idx) (r : Fin 250000) (hj : (j 0).val = r.val) :
    val_main_v16 (F := F) x3 j = x3 (ix2 (0 : Fin 3) r) := by
  rw [val_main_v16_apply, val_main_v15_apply]
  refine congrArg x3 (funext fun b => Fin.ext ?_)
  match b with
  | ⟨0, _⟩ => rfl
  | ⟨1, _⟩ =>
    show (j 0).val % 250000 = r.val
    rw [hj]; exact Nat.mod_eq_of_lt r.isLt

/-- The flattened row `1` of the corner table at a position whose coordinate is `r`. -/
theorem row1_at (x3 : (⟨S3x250000, .i32⟩ : BufTy).Contents (Elt F)) (j : S250000.Idx) (r : Fin 250000) (hj : (j 0).val = r.val) :
    val_main_v18 (F := F) x3 j = x3 (ix2 (1 : Fin 3) r) := by
  rw [val_main_v18_apply, val_main_v17_apply]
  refine congrArg x3 (funext fun b => Fin.ext ?_)
  match b with
  | ⟨0, _⟩ => rfl
  | ⟨1, _⟩ =>
    show (j 0).val % 250000 = r.val
    rw [hj]; exact Nat.mod_eq_of_lt r.isLt

/-- The flattened row `2` of the corner table at a position whose coordinate is `r`. -/
theorem row2_at (x3 : (⟨S3x250000, .i32⟩ : BufTy).Contents (Elt F)) (j : S250000.Idx) (r : Fin 250000) (hj : (j 0).val = r.val) :
    val_main_v20 (F := F) x3 j = x3 (ix2 (2 : Fin 3) r) := by
  rw [val_main_v20_apply, val_main_v19_apply]
  refine congrArg x3 (funext fun b => Fin.ext ?_)
  match b with
  | ⟨0, _⟩ => rfl
  | ⟨1, _⟩ =>
    show (j 0).val % 250000 = r.val
    rw [hj]; exact Nat.mod_eq_of_lt r.isLt

/-- The index column of the gather `main_v27` at clique `r`: the shifted entry `(0, r)`. -/
theorem v26_at (x3 : (⟨S3x250000, .i32⟩ : BufTy).Contents (Elt F)) (r : Fin 250000) :
    val_main_v26 (F := F) x3 (ix2 r (0 : Fin 1)) = Cert.Clique.wrap (x3 (ix2 (0 : Fin 3) r)) := by
  rw [val_main_v26_apply, val_main_v25_apply, val_main_v22_apply, val_main_v24_apply, val_main_v21_apply,
    val_main_v23_apply, val_main_c_apply, val_main_c_0_apply, row0_at x3 (idx_main_v26 (ix2 r (0 : Fin 1))) r rfl]
  rfl

/-- The index column of the gather `main_v34` at clique `r`: the shifted entry `(1, r)`. -/
theorem v33_at (x3 : (⟨S3x250000, .i32⟩ : BufTy).Contents (Elt F)) (r : Fin 250000) :
    val_main_v33 (F := F) x3 (ix2 r (0 : Fin 1)) = Cert.Clique.wrap (x3 (ix2 (1 : Fin 3) r)) := by
  rw [val_main_v33_apply, val_main_v32_apply, val_main_v29_apply, val_main_v31_apply, val_main_v28_apply,
    val_main_v30_apply, val_main_c_1_apply, val_main_c_2_apply, row1_at x3 (idx_main_v33 (ix2 r (0 : Fin 1))) r rfl]
  rfl

/-- The index column of the gather `main_v41` at clique `r`: the shifted entry `(2, r)`. -/
theorem v40_at (x3 : (⟨S3x250000, .i32⟩ : BufTy).Contents (Elt F)) (r : Fin 250000) :
    val_main_v40 (F := F) x3 (ix2 r (0 : Fin 1)) = Cert.Clique.wrap (x3 (ix2 (2 : Fin 3) r)) := by
  rw [val_main_v40_apply, val_main_v39_apply, val_main_v36_apply, val_main_v38_apply, val_main_v35_apply,
    val_main_v37_apply, val_main_c_3_apply, val_main_c_4_apply, row2_at x3 (idx_main_v40 (ix2 r (0 : Fin 1))) r rfl]
  rfl

/-- The index column of the gather `main_v48` at clique `r`: the shifted entry `(0, r)`. -/
theorem v47_at (x3 : (⟨S3x250000, .i32⟩ : BufTy).Contents (Elt F)) (r : Fin 250000) :
    val_main_v47 (F := F) x3 (ix2 r (0 : Fin 1)) = Cert.Clique.wrap (x3 (ix2 (0 : Fin 3) r)) := by
  rw [val_main_v47_apply, val_main_v46_apply, val_main_v43_apply, val_main_v45_apply, val_main_v42_apply,
    val_main_v44_apply, val_main_c_5_apply, val_main_c_6_apply, row0_at x3 (idx_main_v47 (ix2 r (0 : Fin 1))) r rfl]
  rfl

/-- The index column of the gather `main_v55` at clique `r`: the shifted entry `(1, r)`. -/
theorem v54_at (x3 : (⟨S3x250000, .i32⟩ : BufTy).Contents (Elt F)) (r : Fin 250000) :
    val_main_v54 (F := F) x3 (ix2 r (0 : Fin 1)) = Cert.Clique.wrap (x3 (ix2 (1 : Fin 3) r)) := by
  rw [val_main_v54_apply, val_main_v53_apply, val_main_v50_apply, val_main_v52_apply, val_main_v49_apply,
    val_main_v51_apply, val_main_c_7_apply, val_main_c_8_apply, row1_at x3 (idx_main_v54 (ix2 r (0 : Fin 1))) r rfl]
  rfl

/-- The index column of the gather `main_v62` at clique `r`: the shifted entry `(2, r)`. -/
theorem v61_at (x3 : (⟨S3x250000, .i32⟩ : BufTy).Contents (Elt F)) (r : Fin 250000) :
    val_main_v61 (F := F) x3 (ix2 r (0 : Fin 1)) = Cert.Clique.wrap (x3 (ix2 (2 : Fin 3) r)) := by
  rw [val_main_v61_apply, val_main_v60_apply, val_main_v57_apply, val_main_v59_apply, val_main_v56_apply,
    val_main_v58_apply, val_main_c_9_apply, val_main_c_10_apply, row2_at x3 (idx_main_v61 (ix2 r (0 : Fin 1))) r rfl]
  rfl

/-- The index column of the gather `main_v69` at clique `r`: the shifted entry `(0, r)`. -/
theorem v68_at (x3 : (⟨S3x250000, .i32⟩ : BufTy).Contents (Elt F)) (r : Fin 250000) :
    val_main_v68 (F := F) x3 (ix2 r (0 : Fin 1)) = Cert.Clique.wrap (x3 (ix2 (0 : Fin 3) r)) := by
  rw [val_main_v68_apply, val_main_v67_apply, val_main_v64_apply, val_main_v66_apply, val_main_v63_apply,
    val_main_v65_apply, val_main_c_11_apply, val_main_c_12_apply, row0_at x3 (idx_main_v68 (ix2 r (0 : Fin 1))) r rfl]
  rfl

/-- The index column of the gather `main_v76` at clique `r`: the shifted entry `(1, r)`. -/
theorem v75_at (x3 : (⟨S3x250000, .i32⟩ : BufTy).Contents (Elt F)) (r : Fin 250000) :
    val_main_v75 (F := F) x3 (ix2 r (0 : Fin 1)) = Cert.Clique.wrap (x3 (ix2 (1 : Fin 3) r)) := by
  rw [val_main_v75_apply, val_main_v74_apply, val_main_v71_apply, val_main_v73_apply, val_main_v70_apply,
    val_main_v72_apply, val_main_c_13_apply, val_main_c_14_apply, row1_at x3 (idx_main_v75 (ix2 r (0 : Fin 1))) r rfl]
  rfl

/-- The index column of the gather `main_v83` at clique `r`: the shifted entry `(2, r)`. -/
theorem v82_at (x3 : (⟨S3x250000, .i32⟩ : BufTy).Contents (Elt F)) (r : Fin 250000) :
    val_main_v82 (F := F) x3 (ix2 r (0 : Fin 1)) = Cert.Clique.wrap (x3 (ix2 (2 : Fin 3) r)) := by
  rw [val_main_v82_apply, val_main_v81_apply, val_main_v78_apply, val_main_v80_apply, val_main_v77_apply,
    val_main_v79_apply, val_main_c_15_apply, val_main_c_16_apply, row2_at x3 (idx_main_v82 (ix2 r (0 : Fin 1))) r rfl]
  rfl

end Cert.RefSide

end
-- ==== Proof.RefCols.lean ====
/-
  The 128 columns of a layer as four heads of 32 positions, and sums of real entries.

  Column `c < 128` is uniquely `32 h + d` with `h < 4` and `d < 32`, so a sum over the columns is the sum over the
  heads of the sums over a head's positions. The coercion of the reals into the extended reals is additive, so it
  commutes with finite sums, and a finite sum of extended reals that are real numbers is a real number.
-/
import Idealize.ShloMosaic.PureOps.Ideal
import Mathlib.Algebra.BigOperators.Fin
import Mathlib.Logic.Equiv.Fin.Basic
import Mathlib.Data.Fintype.BigOperators

noncomputable section

namespace Cert.RefSide

open Idealize.ShloMosaic
open scoped BigOperators

/-- Column `32 h + d` of head `h`, position `d`. -/
def col (h : Fin 4) (d : Fin 32) : Fin 128 := ⟨h.val * 32 + d.val, by omega⟩

/-- A sum over the 128 columns, head by head. -/
theorem sum_cols {M : Type*} [AddCommMonoid M] (f : Fin 128 → M) :
    ∑ c, f c = ∑ h : Fin 4, ∑ d : Fin 32, f (col h d) := by
  rw [← Equiv.sum_comp (finProdFinEquiv (m := 4) (n := 32)) f, Fintype.sum_prod_type]
  refine Finset.sum_congr rfl fun h _ => Finset.sum_congr rfl fun d _ => congrArg f (Fin.ext ?_)
  simp only [finProdFinEquiv_apply_val, col]
  omega

/-- The coercion of the reals into the extended reals commutes with finite sums. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- A finite sum of extended reals that are real numbers is a real number. -/
theorem sum_real {ι : Type*} [Fintype ι] (g : ι → EReal) (hg : ∀ i, ∃ r : ℝ, g i = (r : EReal)) :
    ∃ r : ℝ, ∑ i, g i = (r : EReal) := by
  choose f hf using hg
  exact ⟨∑ i, f i, by rw [← coe_sum]; exact Finset.sum_congr rfl fun i _ => hf i⟩

end Cert.RefSide

end
-- ==== Proof.RefDense.lean ====
/-
  The three dense layers of the reference, read at a node and a column.

  Each layer is the product of the feature matrix with a weight matrix plus the bias row, then regrouped from 128
  columns into 4 heads of 32 positions without moving an element: entry `(n, h, d)` of the regrouped layer is entry
  `(n, 32 h + d)` of the layer.
-/
import proofs.«181147_j65403761983981_2_alg».proof.Proof.Gen.ReferenceIdeal.Read
import proofs.«181147_j65403761983981_2_alg».proof.Proof.Spec
import proofs.«181147_j65403761983981_2_alg».proof.Proof.RefCols

noncomputable section

namespace Cert.RefSide

open Cert.ReferenceIdeal Cert.ReferenceIdeal.Gen Cert.ReferenceIdeal.Read Idealize.ShloMosaic Idealize.ShloMosaic.TcCoe
open Idealize.ShloMosaic.ValueIdx
open scoped BigOperators

/-- The query layer before the regrouping, at node `n`, column `c`: the dense layer of the feature row. -/
theorem v3_at (x0 : (⟨S100000x128, .f32⟩ : BufTy).Contents (Elt Ideal)) (x5 : (⟨S128x128, .f32⟩ : BufTy).Contents (Elt Ideal)) (x6 : (⟨S128, .f32⟩ : BufTy).Contents (Elt Ideal))
    (n : Fin 100000) (c : Fin 128) :
    val_main_v3 (F := Ideal) x0 x5 x6 (ix2 n c) = Cert.Clique.dense x0 x5 x6 n c := by
  rw [val_main_v3_apply, val_main_v0_apply, val_main_v2_apply, val_main_v1_apply]
  have hl : ∀ k : Fin 128, lidx_main_v0 (ix2 n c) k = ix2 n k := fun k => funext fun a => by
    match a with
    | ⟨0, _⟩ => rfl
    | ⟨1, _⟩ => rfl
  have hr : ∀ k : Fin 128, ridx_main_v0 (ix2 n c) k = ix2 k c := fun k => funext fun a => by
    match a with
    | ⟨0, _⟩ => rfl
    | ⟨1, _⟩ => rfl
  have hb : idx_main_v1 (idx_main_v2 (ix2 n c)) = ix1 c := funext fun a => by
    match a with
    | ⟨0, _⟩ => rfl
  rw [hb]
  simp only [hl, hr]
  rfl

/-- The query layer regrouped into heads, at node `n`, head `h`, position `d`: column `32 h + d` of the layer. -/
theorem v4_at (x0 : (⟨S100000x128, .f32⟩ : BufTy).Contents (Elt Ideal)) (x5 : (⟨S128x128, .f32⟩ : BufTy).Contents (Elt Ideal)) (x6 : (⟨S128, .f32⟩ : BufTy).Contents (Elt Ideal))
    (n : Fin 100000) (h : Fin 4) (d : Fin 32) :
    val_main_v4 (F := Ideal) x0 x5 x6 (ix3 n h d) = Cert.Clique.dense x0 x5 x6 n (col h d) := by
  have hq : idx_main_v4 (ix3 n h d) = ix2 n (col h d) := funext fun a => Fin.ext (by
    have hn := n.isLt; have hh := h.isLt; have hd := d.isLt
    match a with
    | ⟨0, _⟩ => show ((n.val * 4 + h.val) * 32 + d.val) / 128 = n.val; omega
    | ⟨1, _⟩ => show ((n.val * 4 + h.val) * 32 + d.val) % 128 = h.val * 32 + d.val; omega)
  rw [val_main_v4_apply, hq, v3_at]

/-- The key layer before the regrouping, at node `n`, column `c`: the dense layer of the feature row. -/
theorem v8_at (x0 : (⟨S100000x128, .f32⟩ : BufTy).Contents (Elt Ideal)) (x7 : (⟨S128x128, .f32⟩ : BufTy).Contents (Elt Ideal)) (x8 : (⟨S128, .f32⟩ : BufTy).Contents (Elt Ideal))
    (n : Fin 100000) (c : Fin 128) :
    val_main_v8 (F := Ideal) x0 x7 x8 (ix2 n c) = Cert.Clique.dense x0 x7 x8 n c := by
  rw [val_main_v8_apply, val_main_v5_apply, val_main_v7_apply, val_main_v6_apply]
  have hl : ∀ k : Fin 128, lidx_main_v5 (ix2 n c) k = ix2 n k := fun k => funext fun a => by
    match a with
    | ⟨0, _⟩ => rfl
    | ⟨1, _⟩ => rfl
  have hr : ∀ k : Fin 128, ridx_main_v5 (ix2 n c) k = ix2 k c := fun k => funext fun a => by
    match a with
    | ⟨0, _⟩ => rfl
    | ⟨1, _⟩ => rfl
  have hb : idx_main_v6 (idx_main_v7 (ix2 n c)) = ix1 c := funext fun a => by
    match a with
    | ⟨0, _⟩ => rfl
  rw [hb]
  simp only [hl, hr]
  rfl

/-- The key layer regrouped into heads, at node `n`, head `h`, position `d`: column `32 h + d` of the layer. -/
theorem v9_at (x0 : (⟨S100000x128, .f32⟩ : BufTy).Contents (Elt Ideal)) (x7 : (⟨S128x128, .f32⟩ : BufTy).Contents (Elt Ideal)) (x8 : (⟨S128, .f32⟩ : BufTy).Contents (Elt Ideal))
    (n : Fin 100000) (h : Fin 4) (d : Fin 32) :
    val_main_v9 (F := Ideal) x0 x7 x8 (ix3 n h d) = Cert.Clique.dense x0 x7 x8 n (col h d) := by
  have hq : idx_main_v9 (ix3 n h d) = ix2 n (col h d) := funext fun a => Fin.ext (by
    have hn := n.isLt; have hh := h.isLt; have hd := d.isLt
    match a with
    | ⟨0, _⟩ => show ((n.val * 4 + h.val) * 32 + d.val) / 128 = n.val; omega
    | ⟨1, _⟩ => show ((n.val * 4 + h.val) * 32 + d.val) % 128 = h.val * 32 + d.val; omega)
  rw [val_main_v9_apply, hq, v8_at]

/-- The value layer before the regrouping, at node `n`, column `c`: the dense layer of the feature row. -/
theorem v13_at (x0 : (⟨S100000x128, .f32⟩ : BufTy).Contents (Elt Ideal)) (x9 : (⟨S128x128, .f32⟩ : BufTy).Contents (Elt Ideal)) (x10 : (⟨S128, .f32⟩ : BufTy).Contents (Elt Ideal))
    (n : Fin 100000) (c : Fin 128) :
    val_main_v13 (F := Ideal) x0 x9 x10 (ix2 n c) = Cert.Clique.dense x0 x9 x10 n c := by
  rw [val_main_v13_apply, val_main_v10_apply, val_main_v12_apply, val_main_v11_apply]
  have hl : ∀ k : Fin 128, lidx_main_v10 (ix2 n c) k = ix2 n k := fun k => funext fun a => by
    match a with
    | ⟨0, _⟩ => rfl
    | ⟨1, _⟩ => rfl
  have hr : ∀ k : Fin 128, ridx_main_v10 (ix2 n c) k = ix2 k c := fun k => funext fun a => by
    match a with
    | ⟨0, _⟩ => rfl
    | ⟨1, _⟩ => rfl
  have hb : idx_main_v11 (idx_main_v12 (ix2 n c)) = ix1 c := funext fun a => by
    match a with
    | ⟨0, _⟩ => rfl
  rw [hb]
  simp only [hl, hr]
  rfl

/-- The value layer regrouped into heads, at node `n`, head `h`, position `d`: column `32 h + d` of the layer. -/
theorem v14_at (x0 : (⟨S100000x128, .f32⟩ : BufTy).Contents (Elt Ideal)) (x9 : (⟨S128x128, .f32⟩ : BufTy).Contents (Elt Ideal)) (x10 : (⟨S128, .f32⟩ : BufTy).Contents (Elt Ideal))
    (n : Fin 100000) (h : Fin 4) (d : Fin 32) :
    val_main_v14 (F := Ideal) x0 x9 x10 (ix3 n h d) = Cert.Clique.dense x0 x9 x10 n (col h d) := by
  have hq : idx_main_v14 (ix3 n h d) = ix2 n (col h d) := funext fun a => Fin.ext (by
    have hn := n.isLt; have hh := h.isLt; have hd := d.isLt
    match a with
    | ⟨0, _⟩ => show ((n.val * 4 + h.val) * 32 + d.val) / 128 = n.val; omega
    | ⟨1, _⟩ => show ((n.val * 4 + h.val) * 32 + d.val) % 128 = h.val * 32 + d.val; omega)
  rw [val_main_v14_apply, hq, v13_at]

end Cert.RefSide

end
-- ==== Proof.RefLane.lean ====
/-
  The nine gathers and the six-term product of the reference, read at a clique, a head and a position.

  Each gather picks, for every clique, the row of one regrouped layer at one corner's node; the node is the corner
  table's entry, shifted up when negative and clamped into the table's rows. The six products of one query, one key
  and one value entry at three different corners, summed left to right, are the lane term of the clique.
-/
import proofs.«181147_j65403761983981_2_alg».proof.Proof.LibGatherRows3
import proofs.«181147_j65403761983981_2_alg».proof.Proof.RefIndex
import proofs.«181147_j65403761983981_2_alg».proof.Proof.RefDense

noncomputable section

namespace Cert.RefSide

open Cert.ReferenceIdeal Cert.ReferenceIdeal.Gen Cert.ReferenceIdeal.Read Idealize.ShloMosaic Idealize.ShloMosaic.TcCoe
open Idealize.ShloMosaic.ValueIdx Idealize.ShloMosaic.GatherRows3
open scoped BigOperators

/-- The program's gather, read at clique `r`, head `h`, position `d`: the table's row at the node the index column
    names (read signed, clamped into the table's rows), at `(h, d)`. -/
theorem gather_at {α : Type} (x : S100000x4x32.Idx → α) (idx : IVec S250000x1 32) (r : Fin 250000) (h : Fin 4) (d : Fin 32) :
    Host.gather gather_S100000x4x32_S250000x1_S250000x4x32_12_0_n_n_0_1_1432 x idx (ix3 r h d)
      = x (ix3 (Cert.Clique.node (idx (ix2 r (0 : Fin 1)))) h d) :=
  gather_rows3_apply (N := 100000) (E := 250000) (H := 4) (D := 32) (by decide)
    gather_S100000x4x32_S250000x1_S250000x4x32_12_0_n_n_0_1_1432_wf x idx r h d

/-- The gathered query rows of corner `0`: the query layer at the corner's node, column `32 h + d`. -/
theorem v27_at (x0 : (⟨S100000x128, .f32⟩ : BufTy).Contents (Elt Ideal)) (x3 : (⟨S3x250000, .i32⟩ : BufTy).Contents (Elt Ideal)) (x5 : (⟨S128x128, .f32⟩ : BufTy).Contents (Elt Ideal))
    (x6 : (⟨S128, .f32⟩ : BufTy).Contents (Elt Ideal)) (r : Fin 250000) (h : Fin 4) (d : Fin 32) :
    val_main_v27 (F := Ideal) x0 x3 x5 x6 (ix3 r h d)
      = Cert.Clique.dense x0 x5 x6 (Cert.Clique.corner x3 0 r) (col h d) := by
  unfold val_main_v27
  rw [gather_at, v26_at, v4_at]
  rfl

/-- The gathered query rows of corner `1`: the query layer at the corner's node, column `32 h + d`. -/
theorem v34_at (x0 : (⟨S100000x128, .f32⟩ : BufTy).Contents (Elt Ideal)) (x3 : (⟨S3x250000, .i32⟩ : BufTy).Contents (Elt Ideal)) (x5 : (⟨S128x128, .f32⟩ : BufTy).Contents (Elt Ideal))
    (x6 : (⟨S128, .f32⟩ : BufTy).Contents (Elt Ideal)) (r : Fin 250000) (h : Fin 4) (d : Fin 32) :
    val_main_v34 (F := Ideal) x0 x3 x5 x6 (ix3 r h d)
      = Cert.Clique.dense x0 x5 x6 (Cert.Clique.corner x3 1 r) (col h d) := by
  unfold val_main_v34
  rw [gather_at, v33_at, v4_at]
  rfl

/-- The gathered query rows of corner `2`: the query layer at the corner's node, column `32 h + d`. -/
theorem v41_at (x0 : (⟨S100000x128, .f32⟩ : BufTy).Contents (Elt Ideal)) (x3 : (⟨S3x250000, .i32⟩ : BufTy).Contents (Elt Ideal)) (x5 : (⟨S128x128, .f32⟩ : BufTy).Contents (Elt Ideal))
    (x6 : (⟨S128, .f32⟩ : BufTy).Contents (Elt Ideal)) (r : Fin 250000) (h : Fin 4) (d : Fin 32) :
    val_main_v41 (F := Ideal) x0 x3 x5 x6 (ix3 r h d)
      = Cert.Clique.dense x0 x5 x6 (Cert.Clique.corner x3 2 r) (col h d) := by
  unfold val_main_v41
  rw [gather_at, v40_at, v4_at]
  rfl

/-- The gathered key rows of corner `0`: the key layer at the corner's node, column `32 h + d`. -/
theorem v48_at (x0 : (⟨S100000x128, .f32⟩ : BufTy).Contents (Elt Ideal)) (x3 : (⟨S3x250000, .i32⟩ : BufTy).Contents (Elt Ideal)) (x7 : (⟨S128x128, .f32⟩ : BufTy).Contents (Elt Ideal))
    (x8 : (⟨S128, .f32⟩ : BufTy).Contents (Elt Ideal)) (r : Fin 250000) (h : Fin 4) (d : Fin 32) :
    val_main_v48 (F := Ideal) x0 x3 x7 x8 (ix3 r h d)
      = Cert.Clique.dense x0 x7 x8 (Cert.Clique.corner x3 0 r) (col h d) := by
  unfold val_main_v48
  rw [gather_at, v47_at, v9_at]
  rfl

/-- The gathered key rows of corner `1`: the key layer at the corner's node, column `32 h + d`. -/
theorem v55_at (x0 : (⟨S100000x128, .f32⟩ : BufTy).Contents (Elt Ideal)) (x3 : (⟨S3x250000, .i32⟩ : BufTy).Contents (Elt Ideal)) (x7 : (⟨S128x128, .f32⟩ : BufTy).Contents (Elt Ideal))
    (x8 : (⟨S128, .f32⟩ : BufTy).Contents (Elt Ideal)) (r : Fin 250000) (h : Fin 4) (d : Fin 32) :
    val_main_v55 (F := Ideal) x0 x3 x7 x8 (ix3 r h d)
      = Cert.Clique.dense x0 x7 x8 (Cert.Clique.corner x3 1 r) (col h d) := by
  unfold val_main_v55
  rw [gather_at, v54_at, v9_at]
  rfl

/-- The gathered key rows of corner `2`: the key layer at the corner's node, column `32 h + d`. -/
theorem v62_at (x0 : (⟨S100000x128, .f32⟩ : BufTy).Contents (Elt Ideal)) (x3 : (⟨S3x250000, .i32⟩ : BufTy).Contents (Elt Ideal)) (x7 : (⟨S128x128, .f32⟩ : BufTy).Contents (Elt Ideal))
    (x8 : (⟨S128, .f32⟩ : BufTy).Contents (Elt Ideal)) (r : Fin 250000) (h : Fin 4) (d : Fin 32) :
    val_main_v62 (F := Ideal) x0 x3 x7 x8 (ix3 r h d)
      = Cert.Clique.dense x0 x7 x8 (Cert.Clique.corner x3 2 r) (col h d) := by
  unfold val_main_v62
  rw [gather_at, v61_at, v9_at]
  rfl

/-- The gathered value rows of corner `0`: the value layer at the corner's node, column `32 h + d`. -/
theorem v69_at (x0 : (⟨S100000x128, .f32⟩ : BufTy).Contents (Elt Ideal)) (x3 : (⟨S3x250000, .i32⟩ : BufTy).Contents (Elt Ideal)) (x9 : (⟨S128x128, .f32⟩ : BufTy).Contents (Elt Ideal))
    (x10 : (⟨S128, .f32⟩ : BufTy).Contents (Elt Ideal)) (r : Fin 250000) (h : Fin 4) (d : Fin 32) :
    val_main_v69 (F := Ideal) x0 x3 x9 x10 (ix3 r h d)
      = Cert.Clique.dense x0 x9 x10 (Cert.Clique.corner x3 0 r) (col h d) := by
  unfold val_main_v69
  rw [gather_at, v68_at, v14_at]
  rfl

/-- The gathered value rows of corner `1`: the value layer at the corner's node, column `32 h + d`. -/
theorem v76_at (x0 : (⟨S100000x128, .f32⟩ : BufTy).Contents (Elt Ideal)) (x3 : (⟨S3x250000, .i32⟩ : BufTy).Contents (Elt Ideal)) (x9 : (⟨S128x128, .f32⟩ : BufTy).Contents (Elt Ideal))
    (x10 : (⟨S128, .f32⟩ : BufTy).Contents (Elt Ideal)) (r : Fin 250000) (h : Fin 4) (d : Fin 32) :
    val_main_v76 (F := Ideal) x0 x3 x9 x10 (ix3 r h d)
      = Cert.Clique.dense x0 x9 x10 (Cert.Clique.corner x3 1 r) (col h d) := by
  unfold val_main_v76
  rw [gather_at, v75_at, v14_at]
  rfl

/-- The gathered value rows of corner `2`: the value layer at the corner's node, column `32 h + d`. -/
theorem v83_at (x0 : (⟨S100000x128, .f32⟩ : BufTy).Contents (Elt Ideal)) (x3 : (⟨S3x250000, .i32⟩ : BufTy).Contents (Elt Ideal)) (x9 : (⟨S128x128, .f32⟩ : BufTy).Contents (Elt Ideal))
    (x10 : (⟨S128, .f32⟩ : BufTy).Contents (Elt Ideal)) (r : Fin 250000) (h : Fin 4) (d : Fin 32) :
    val_main_v83 (F := Ideal) x0 x3 x9 x10 (ix3 r h d)
      = Cert.Clique.dense x0 x9 x10 (Cert.Clique.corner x3 2 r) (col h d) := by
  unfold val_main_v83
  rw [gather_at, v82_at, v14_at]
  rfl

/-- The six-term product at clique `r`, head `h`, position `d`: the lane term of the clique's three corners at
    column `32 h + d`. The six products and the order of their sum are those of the lane term. -/
theorem v100_at (P : Cert.Clique.Params) (x3 : (⟨S3x250000, .i32⟩ : BufTy).Contents (Elt Ideal)) (r : Fin 250000) (h : Fin 4) (d : Fin 32) :
    val_main_v100 (F := Ideal) P.x x3 P.Qw P.Qb P.Kw P.Kb P.Vw P.Vb (ix3 r h d)
      = Cert.Clique.lane P (Cert.Clique.corner x3 0 r) (Cert.Clique.corner x3 1 r) (Cert.Clique.corner x3 2 r) (col h d) := by
  simp only [val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply,
    v27_at, v34_at, v41_at, v48_at, v55_at, v62_at, v69_at, v76_at, v83_at]
  rfl

end Cert.RefSide

end
-- ==== Proof.RefReal.lean ====
/-
  With real arguments every lane term is a real number.

  Sums and products of extended reals that are real numbers are real numbers; a dense layer of real features, weights
  and biases therefore has real entries, and so has every lane term built from three such layers.
-/
import proofs.«181147_j65403761983981_2_alg».proof.Proof.Spec
import proofs.«181147_j65403761983981_2_alg».proof.Proof.RefCols

noncomputable section

namespace Cert.RefSide

open Idealize.ShloMosaic Idealize.ShloMosaic.ValueIdx
open scoped BigOperators

/-- A product of two real entries is a real entry. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- A sum of two real entries is a real entry. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- A dense layer of real features, weights and biases has real entries. -/
theorem dense_real (x : (⟨2, ![100000, 128]⟩ : Shape).Idx → EReal) (w : (⟨2, ![128, 128]⟩ : Shape).Idx → EReal)
    (b : (⟨1, ![128]⟩ : Shape).Idx → EReal) (hx : ∀ i, ∃ r : ℝ, x i = (r : EReal)) (hw : ∀ i, ∃ r : ℝ, w i = (r : EReal))
    (hb : ∀ i, ∃ r : ℝ, b i = (r : EReal)) (n : Fin 100000) (c : Fin 128) :
    ∃ r : ℝ, Cert.Clique.dense x w b n c = (r : EReal) :=
  add_real (sum_real (fun k : Fin 128 => x (ix2 n k) * w (ix2 k c)) fun k => mul_real (hx _) (hw _)) (hb _)

/-- With real arguments every lane term is a real number. -/
theorem lane_real (P : Cert.Clique.Params) (hP : P.Real) (a b d : Fin 100000) (c : Fin 128) :
    ∃ r : ℝ, Cert.Clique.lane P a b d c = (r : EReal) := by
  have q : ∀ n, ∃ r : ℝ, P.q n c = (r : EReal) := fun n => dense_real P.x P.Qw P.Qb hP.x hP.Qw hP.Qb n c
  have k : ∀ n, ∃ r : ℝ, P.k n c = (r : EReal) := fun n => dense_real P.x P.Kw P.Kb hP.x hP.Kw hP.Kb n c
  have v : ∀ n, ∃ r : ℝ, P.v n c = (r : EReal) := fun n => dense_real P.x P.Vw P.Vb hP.x hP.Vw hP.Vb n c
  exact add_real (add_real (add_real (add_real (add_real (mul_real (mul_real (q a) (k b)) (v d))
    (mul_real (mul_real (q b) (k d)) (v a))) (mul_real (mul_real (q d) (k a)) (v b)))
    (mul_real (mul_real (q b) (k a)) (v d))) (mul_real (mul_real (q d) (k b)) (v a))) (mul_real (mul_real (q a) (k d)) (v b))

end Cert.RefSide

end
-- ==== Proof.RefConsts.lean ====
/-
  The three float constants of the clique score, as the real numbers their bit patterns denote.

  `0x3E2AAAAB` is the single-precision number nearest one sixth, `11184811 / 2^26`; `0x40800000` is `4`;
  `0x3D2AAAAB` is the single-precision number nearest one twenty-fourth, `11184811 / 2^28`, which is exactly the
  first divided by the second.
-/
import Idealize.ShloMosaic.PureOps.Ideal

noncomputable section

namespace Cert.RefSide

open Idealize.ShloMosaic

/-- The pattern of one sixth denotes `11184811 / 2^26`. -/
theorem ofBits_sixth : Ideal.ofBits .f32 0x3E2AAAAB#32 = ((11184811 / 67108864 : ℝ) : EReal) := by
  simp [Ideal.ofBits, Ideal.ieee, -EReal.coe_mul]; norm_num

/-- The pattern of four denotes `4`. -/
theorem ofBits_four : Ideal.ofBits .f32 0x40800000#32 = ((4 : ℝ) : EReal) := by
  simp [Ideal.ofBits, Ideal.ieee, -EReal.coe_mul]; norm_num

/-- The pattern of one twenty-fourth denotes `11184811 / 2^28`. -/
theorem ofBits_twentyfourth : Ideal.ofBits .f32 0x3D2AAAAB#32 = ((11184811 / 268435456 : ℝ) : EReal) := by
  simp [Ideal.ofBits, Ideal.ieee, -EReal.coe_mul]; norm_num

/-- The zero pattern denotes `0`. -/
theorem ofBits_zero : Ideal.ofBits .f32 0x00000000#32 = 0 := by
  simp [Ideal.ofBits, Ideal.ieee]

end Cert.RefSide

end
-- ==== Proof.RefAlgebra.lean ====
/-
  The arithmetic that separates the reference's clique result from the clique score.

  The reference scales each head's sum by the single-precision `1/6`, adds the four scaled sums and divides by `4`;
  the score scales the sum over all 128 columns by the single-precision `1/24`. For real entries the two agree, because
  the first constant divided by four is exactly the second, and the sums start from zero.
-/
import proofs.«181147_j65403761983981_2_alg».proof.Proof.RefConsts
import proofs.«181147_j65403761983981_2_alg».proof.Proof.RefCols

noncomputable section

namespace Cert.RefSide

open Idealize.ShloMosaic
open scoped BigOperators

/-- The mean over the four heads of the scaled head sums, exponentiated, is the exponential of the scaled sum over
    all columns: `(Σ_h (Σ_d g(32h+d)) · s₆) / 4 = (Σ_c g c) · s₂₄` for real entries, the patterns of `1/6`, `4` and
    `1/24` denoting reals with `s₆ / 4 = s₂₄` exactly. The two zero words the sums start from denote `0`. -/
theorem score_algebra (g : Fin 128 → EReal) (hg : ∀ c, ∃ r : ℝ, g c = (r : EReal)) :
    Ideal.exp (Ideal.div (Ideal.ofBits .f32 0x00000000#32 + ∑ h : Fin 4,
        (Ideal.ofBits .f32 0x00000000#32 + ∑ d : Fin 32, g (col h d)) * Ideal.ofBits .f32 0x3E2AAAAB#32)
      (Ideal.ofBits .f32 0x40800000#32))
      = Ideal.exp ((∑ c : Fin 128, g c) * Ideal.ofBits .f32 0x3D2AAAAB#32) := by
  choose f hf using hg
  obtain rfl : g = fun c => (f c : EReal) := funext hf
  rw [ofBits_zero, ofBits_sixth, ofBits_four, ofBits_twentyfourth]
  simp only [zero_add]
  have h4 : (4 : ℝ) ≠ 0 := by norm_num
  have e1 : ∀ h : Fin 4, (∑ d : Fin 32, (f (col h d) : EReal)) * ((11184811 / 67108864 : ℝ) : EReal)
      = (((∑ d : Fin 32, f (col h d)) * (11184811 / 67108864) : ℝ) : EReal) := by
    intro h; rw [coe_sum, ← EReal.coe_mul]
  rw [Finset.sum_congr rfl fun h _ => e1 h, coe_sum, Ideal.div_coe h4, ← EReal.coe_mul, coe_sum, ← EReal.coe_mul]
  refine congrArg Ideal.exp (congrArg _ ?_)
  rw [sum_cols f, ← Finset.sum_mul]
  ring

end Cert.RefSide

end
-- ==== Proof.RefScore.lean ====
/-
  The reference's clique result, clique by clique, is the clique score.

  The reference reduces the six-term product over a head's 32 positions, scales by `1/6`, reduces over the 4 heads,
  divides by `4` and exponentiates; with the product read as the lane term this is the exponential of the scaled sum
  of the lane terms over all 128 columns whenever the arguments are real.
-/
import proofs.«181147_j65403761983981_2_alg».proof.Proof.RefLane
import proofs.«181147_j65403761983981_2_alg».proof.Proof.RefReal
import proofs.«181147_j65403761983981_2_alg».proof.Proof.RefAlgebra

noncomputable section

namespace Cert.RefSide

open Cert.ReferenceIdeal Cert.ReferenceIdeal.Gen Cert.ReferenceIdeal.Read Idealize.ShloMosaic Idealize.ShloMosaic.TcCoe
open Idealize.ShloMosaic.ValueIdx
open scoped BigOperators

/-- The reference's clique result at clique `r`, for real arguments: the clique's score. The program sums each
    head's 32 lane terms from a zero word, scales the head sum by the word of `1/6`, sums the four heads from a zero
    word, divides by the word of `4` and exponentiates. -/
theorem v107_at (P : Cert.Clique.Params) (x3 : (⟨S3x250000, .i32⟩ : BufTy).Contents (Elt Ideal)) (hP : P.Real) (r : Fin 250000) :
    val_main_v107 (F := Ideal) P.x x3 P.Qw P.Qb P.Kw P.Kb P.Vw P.Vb (ix1 r) = Cert.Clique.score P x3 r := by
  have hidx : ∀ (k : Fin 4) (k' : Fin 32), idx_main_v101 (idx_main_v104 (ix1 r) k) k' = ix3 r k k' :=
    fun k k' => funext fun a => by
      match a with
      | ⟨0, _⟩ => rfl
      | ⟨1, _⟩ => rfl
      | ⟨2, _⟩ => rfl
  simp only [val_main_v107_apply, val_main_v106_apply, val_main_v105_apply, val_main_cst_19_apply, val_main_v104_apply,
    val_main_cst_18_apply, val_main_v103_apply, val_main_v102_apply, val_main_cst_17_apply, val_main_v101_apply,
    val_main_cst_apply, hidx, v100_at, Ideal.hostUnary_exp_def, Ideal.hostDivf_def, Ideal.ofBits_def, Ideal.mulf_def]
  exact score_algebra
    (fun c => Cert.Clique.lane P (Cert.Clique.corner x3 0 r) (Cert.Clique.corner x3 1 r) (Cert.Clique.corner x3 2 r) c)
    (fun c => lane_real P hP _ _ _ c)

end Cert.RefSide

end
-- ==== Proof.RefSide.lean ====
/-
  The reference side: its clique result is the clique score of its arguments (for real float arguments), and its
  edge and node results are the two segment sums applied to the clique and edge results.
-/
import proofs.«181147_j65403761983981_2_alg».proof.Proof.Gen.ReferenceIdeal.Run
import proofs.«181147_j65403761983981_2_alg».proof.Proof.Gen.ReferenceIdeal.Read
import proofs.«181147_j65403761983981_2_alg».proof.Proof.RefTail
import proofs.«181147_j65403761983981_2_alg».proof.Proof.RefScore

noncomputable section

namespace Cert.RefSide

open Cert.ReferenceIdeal Cert.ReferenceIdeal.Gen Cert.ReferenceIdeal.Read Idealize.ShloMosaic Idealize.ShloMosaic.TcCoe Idealize.SL.Sem
open Idealize.ShloMosaic.ValueIdx

/-- The float arguments of the reference, as the score's parameters: the node features, then the query, key and
    value layers' weights and biases. -/
def paramsOf (m : (ℓ : Loc nD τ sig) → Buf (Elt Ideal) ℓ) (c : Dev nD) : Cert.Clique.Params :=
  ⟨m ((c.tc : Thread nD τ).loc main_arg0), m ((c.tc : Thread nD τ).loc main_arg5), m ((c.tc : Thread nD τ).loc main_arg6),
    m ((c.tc : Thread nD τ).loc main_arg7), m ((c.tc : Thread nD τ).loc main_arg8), m ((c.tc : Thread nD τ).loc main_arg9),
    m ((c.tc : Thread nD τ).loc main_arg10)⟩

/-- For real float arguments the reference's clique result is the clique score of its arguments, clique by clique. -/
theorem out2_eq (m : (ℓ : Loc nD τ sig) → Buf (Elt Ideal) ℓ) (c : Dev nD) (h : (paramsOf m c).Real) :
    Cert.ReferenceIdeal.Value.res_out2 (F := Ideal) m c
      = fun i => Cert.Clique.score (paramsOf m c) (m ((c.tc : Thread nD τ).loc main_arg3)) (i 0) := by
  refine (val_main_v107_eq (F := Ideal) m c).trans (funext fun i => ?_)
  rw [eq_ix1 i]
  exact v107_at (paramsOf m c) (m ((c.tc : Thread nD τ).loc main_arg3)) h (i 0)

end Cert.RefSide

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.PreReal.lean ====
/-
  The precondition "every float input is finite", decoded: every entry of every float argument is a real number.

  The predicate is the conjunction, over the seven float arguments, of "all entries satisfy |x| < +∞", where |x| is
  `max x (−x)` and +∞ is given by its single-precision pattern. A conjunction of bits is one exactly when every bit
  is one; an "all" that is one had a one at every entry; and an extended real whose absolute value is below +∞ is
  neither infinity, hence a real number.
-/
import proofs.«181147_j65403761983981_2_alg».proof.Pre_finite_inputs
import proofs.«181147_j65403761983981_2_alg».proof.Proof.Spec
import Idealize.ShloMosaic.Lib.ReduceAll
import proofs.«181147_j65403761983981_2_alg».proof.Proof.LibFiniteEntry

noncomputable section

namespace Cert.PreReal

open Idealize.ShloMosaic Cert.Pre_finite_inputs

/-- The empty shape has one index. -/
instance : Subsingleton S_.Idx := ⟨fun _ _ => funext fun d => d.elim0⟩

/-- One "all entries are finite" that is one, decoded: every entry of the array is a real number. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  FiniteEntry.real_of_abs_lt_inf (x i) (Host.reduce_andi_all _ _ hr hu j e i)

/-- A conjunction of two bit arrays that is one at an index: both are one there. -/
theorem both_one {s : Shape} (A B : IVec s 1) (i : s.Idx) (h : andi A B i = 1#1) : A i = 1#1 ∧ B i = 1#1 :=
  IntOp.andi_eq_one.1 h

/-- The precondition decoded: every entry of the node features and of the three layers' weights and biases is a
    real number. -/
theorem real_of_fn [Cert.Pre_finite_inputs.Facts] (a0 : FVec Ideal S100000x128 .f32) (a1 : IVec S2x1600000 32) (a2 : IVec S2x3200000 32)
    (a3 : IVec S3x250000 32) (a4 : IVec S2x750000 32) (a5 : FVec Ideal S128x128 .f32) (a6 : FVec Ideal S128 .f32)
    (a7 : FVec Ideal S128x128 .f32) (a8 : FVec Ideal S128 .f32) (a9 : FVec Ideal S128x128 .f32) (a10 : FVec Ideal S128 .f32)
    (h : Cert.Pre_finite_inputs.fn (F := Ideal) a0 a1 a2 a3 a4 a5 a6 a7 a8 a9 a10 = (fun _ => 1#1)) :
    (⟨a0, a5, a6, a7, a8, a9, a10⟩ : Cert.Clique.Params).Real := by
  have e := congrFun h ValueIdx.ix0
  dsimp only [Cert.Pre_finite_inputs.fn, Cert.Pre_finite_inputs.fn_part1] at e
  obtain ⟨e, h10⟩ := both_one _ _ _ e
  obtain ⟨e, h9⟩ := both_one _ _ _ e
  obtain ⟨e, h8⟩ := both_one _ _ _ e
  obtain ⟨e, h7⟩ := both_one _ _ _ e
  obtain ⟨e, h6⟩ := both_one _ _ _ e
  obtain ⟨h0, h5⟩ := both_one _ _ _ e
  exact ⟨all_real a0 _ _ _ _ h0, all_real a5 _ _ _ _ h5, all_real a6 _ _ _ _ h6, all_real a7 _ _ _ _ h7,
    all_real a8 _ _ _ _ h8, all_real a9 _ _ _ _ h9, all_real a10 _ _ _ _ h10⟩

end Cert.PreReal

end
-- ==== Proof.lean ====
/-
  The certificate's five claims.

  Both programs compute, per clique, the score exp(s · Σ over 128 columns of the symmetrised query·key·value lane
  term of the clique's three corners), then add every clique's score into its three edges and every edge's sum into
  its two end nodes. The kernel forms the projections of all nodes in one region (the three weight matrices joined),
  gathers them at the corners and reduces all 128 columns at once with the scale 1/24; the reference gathers head by
  head, sums 32 columns per head with the scale 1/6 and averages the four heads. On real inputs the two scores are one
  number (the scale words are exactly a factor 4 apart, and a finite sum may be regrouped and a real factor moved
  across it); the two accumulations are the same operations of the same arguments.

  The frames: each program runs to the end from any memory, and no argument array is written. The kernel's ideal
  pass rewrote nothing, so the third claim is trivial.
-/
import proofs.«181147_j65403761983981_2_alg».proof.Defs
import proofs.«181147_j65403761983981_2_alg».proof.Proof.Gen.Kernel
import proofs.«181147_j65403761983981_2_alg».proof.Proof.Gen.KernelIdeal
import proofs.«181147_j65403761983981_2_alg».proof.Proof.Gen.ReferenceIdeal
import proofs.«181147_j65403761983981_2_alg».proof.Proof.Gen.Pre_finite_inputs
import proofs.«181147_j65403761983981_2_alg».proof.Proof.KRun
import proofs.«181147_j65403761983981_2_alg».proof.Proof.KIRun
import proofs.«181147_j65403761983981_2_alg».proof.Proof.KIResults
import proofs.«181147_j65403761983981_2_alg».proof.Proof.RefSide
import proofs.«181147_j65403761983981_2_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- The two accumulations are the same operations in both programs. -/
theorem edge_eq (d : FVec Ideal Cert.KernelIdeal.S250000 .f32) (a : IVec Cert.KernelIdeal.S2x750000 32) :
    Cert.RefSide.tail1 d a = Cert.KernelIdeal.HostReads.edgeSums (F := Ideal) d a := rfl

theorem node_eq (d : FVec Ideal Cert.KernelIdeal.S1600000 .f32) (a : IVec Cert.KernelIdeal.S2x3200000 32) :
    Cert.RefSide.tail0 d a = Cert.KernelIdeal.HostReads.nodeSums (F := Ideal) d a := rfl

theorem algebraic : Cert.algebraic_KernelIdeal_ReferenceIdeal := by
  intro m ρ m' ρ' hpre hagree
  refine ⟨_, _, _, Cert.KernelIdeal.Results.run m ρ, ?_⟩
  refine (θ_run Cert.ReferenceIdeal.defs _ _).mono (fun r h c => ?_) (Cert.ReferenceIdeal.Value.run (F := Ideal) m' ρ')
  obtain ⟨h0, h1, h2, hargs⟩ := h c
  obtain ⟨g0, g1, g2, g3, g4, g5, g6, g7, g8, g9, g10⟩ := hagree c
  have hreal : (Cert.RefSide.paramsOf m' c).Real := by
    have := Cert.PreReal.real_of_fn _ _ _ _ _ _ _ _ _ _ _ (hpre c)
    unfold Cert.RefSide.paramsOf
    rw [g0, g5, g6, g7, g8, g9, g10]
    exact this
  have hs : Cert.ReferenceIdeal.Value.res_out2 (F := Ideal) m' c = Cert.KernelIdeal.Results.scores m c := by
    rw [Cert.RefSide.out2_eq m' c hreal]
    unfold Cert.KernelIdeal.Results.scores Cert.RefSide.paramsOf
    rw [g0, g3, g5, g6, g7, g8, g9, g10]
    rfl
  have hs1 : Cert.ReferenceIdeal.Value.res_out1 (F := Ideal) m' c
      = Cert.KernelIdeal.HostReads.edgeSums (F := Ideal) (Cert.KernelIdeal.Results.scores m c)
          (m ((c.tc : Thread Cert.KernelIdeal.nD Cert.KernelIdeal.τ).loc Cert.KernelIdeal.main_arg4)) := by
    rw [Cert.RefSide.out1_eq m' c, hs, g4]; exact edge_eq _ _
  have hs0 : Cert.ReferenceIdeal.Value.res_out0 (F := Ideal) m' c
      = Cert.KernelIdeal.HostReads.nodeSums (F := Ideal) (Cert.KernelIdeal.HostReads.edgeSums (F := Ideal) (Cert.KernelIdeal.Results.scores m c)
          (m ((c.tc : Thread Cert.KernelIdeal.nD Cert.KernelIdeal.τ).loc Cert.KernelIdeal.main_arg4)))
          (m ((c.tc : Thread Cert.KernelIdeal.nD Cert.KernelIdeal.τ).loc Cert.KernelIdeal.main_arg2)) := by
    rw [Cert.RefSide.out0_eq m' c, hs1, g2]; exact node_eq _ _
  exact ⟨h0.trans hs0, h1.trans hs1, h2.trans hs, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
